-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S25000x350 : Shape := ⟨2, ![25000, 350]⟩
abbrev S25000x12 : Shape := ⟨2, ![25000, 12]⟩
abbrev S2x800000 : Shape := ⟨2, ![2, 800000]⟩
abbrev S800000 : Shape := ⟨1, ![800000]⟩
abbrev S31090x768 : Shape := ⟨2, ![31090, 768]⟩
abbrev S768x768 : Shape := ⟨2, ![768, 768]⟩
abbrev S768 : Shape := ⟨1, ![768]⟩
abbrev S128x128 : Shape := ⟨2, ![128, 128]⟩
abbrev S128 : Shape := ⟨1, ![128]⟩
abbrev S780x128 : Shape := ⟨2, ![780, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S25000x12 : S_.BroadcastsInDim S25000x12 (![] : Fin 0 → Fin S25000x12.rank)
  reducesTo_S25000x12_S_d0_1 : S25000x12.ReducesTo [0, 1] S_
  bcast_S_S31090x768 : S_.BroadcastsInDim S31090x768 (![] : Fin 0 → Fin S31090x768.rank)
  reducesTo_S31090x768_S_d0_1 : S31090x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S780x128 : S_.BroadcastsInDim S780x128 (![] : Fin 0 → Fin S780x128.rank)
  reducesTo_S780x128_S_d0_1 : S780x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg18 : FVec F S128 .f32) (main_arg19 : FVec F S128x64 .f32) (main_arg20 : FVec F S64 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg19
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg15 : FVec F S128 .f32) (main_arg16 : FVec F S128x128 .f32) (main_arg17 : FVec F S128x128 .f32) (main_arg18 : FVec F S128 .f32) (main_arg19 : FVec F S128x64 .f32) (main_arg20 : FVec F S64 .f32) (main_v48 : IVec S_ 1) (main_v49 : FVec F S780x128 .f32) (main_v50 : FVec F S780x128 .f32) : IVec S_ 1 :=
  let main_v51 : IVec S780x128 1 := cmpf .olt main_v49 main_v50
  let main_c_19 : IVec S_ 1 := constantI S_ 1 1#1
  let main_v52 : IVec S_ 1 := (fun x v => Host.reduce IntOp.andi x v reducesTo_S780x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_arg20 main_v63 main_v67

def fn_part2 {F : FTy → Type} [FloatOps F] (main_arg11 : FVec F S128x128 .f32) (main_arg12 : FVec F S128 .f32) (main_arg13 : FVec F S128x128 .f32) (main_arg14 : FVec F S780x128 .f32) (main_arg15 : FVec F S128 .f32) (main_arg16 : FVec F S128x128 .f32) (main_arg17 : FVec F S128x128 .f32) (main_arg18 : FVec F S128 .f32) (main_arg19 : FVec F S128x64 .f32) (main_arg20 : FVec F S64 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S780x128 .f32 := Host.absf main_arg14
  let main_cst_18 : FVec F S_ .f32 := constant S_ .f32 0x7F800000#32
  let main_v50 : FVec F S780x128 .f32 := broadcastInDim S780x128 ![] bcast_S_S780x128 main_cst_18
  fn_part3 (F := F) main_arg15 main_arg16 main_arg17 main_arg18 main_arg19 main_arg20 main_v48 main_v49 main_v50

def fn_part1 {F : FTy → Type} [FloatOps F] (main_arg8 : FVec F S768 .f32) (main_arg9 : FVec F S128x128 .f32) (main_arg10 : FVec F S128 .f32) (main_arg11 : FVec F S128x128 .f32) (main_arg12 : FVec F S128 .f32) (main_arg13 : FVec F S128x128 .f32) (main_arg14 : FVec F S780x128 .f32) (main_arg15 : FVec F S128 .f32) (main_arg16 : FVec F S128x128 .f32) (main_arg17 : FVec F S128x128 .f32) (main_arg18 : FVec F S128 .f32) (main_arg19 : FVec F S128x64 .f32) (main_arg20 : FVec F S64 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg8
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S50000x128 .f32) (main_arg1 : IVec S25000x350 32) (main_arg2 : FVec F S25000x12 .f32) (main_arg3 : IVec S2x800000 32) (main_arg4 : IVec S800000 32) (main_arg5 : IVec S800000 32) (main_arg6 : FVec F S31090x768 .f32) (main_arg7 : FVec F S768x768 .f32) (main_arg8 : FVec F S768 .f32) (main_arg9 : FVec F S128x128 .f32) (main_arg10 : FVec F S128 .f32) (main_arg11 : FVec F S128x128 .f32) (main_arg12 : FVec F S128 .f32) (main_arg13 : FVec F S128x128 .f32) (main_arg14 : FVec F S780x128 .f32) (main_arg15 : FVec F S128 .f32) (main_arg16 : FVec F S128x128 .f32) (main_arg17 : FVec F S128x128 .f32) (main_arg18 : FVec F S128 .f32) (main_arg19 : FVec F S128x64 .f32) (main_arg20 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S25000x12 .f32 := Host.absf main_arg2
  let main_cst_0 : FVec F S_ .f32 := constant S_ .f32 0x7F800000#32
  let main_v5 : FVec F S25000x12 .f32 := broadcastInDim S25000x12 ![] bcast_S_S25000x12 main_cst_0
  let main_v6 : IVec S25000x12 1 := cmpf .olt main_v4 main_v5
  let main_c_1 : IVec S_ 1 := constantI S_ 1 1#1
  let main_v7 : IVec S_ 1 := (fun x v => Host.reduce IntOp.andi x v reducesTo_S25000x12_S_d0_1 h_S_) main_v6 main_c_1
  let main_v8 : IVec S_ 1 := andi main_v3 main_v7
  let main_v9 : FVec F S31090x768 .f32 := Host.absf main_arg6
  let main_cst_2 : FVec F S_ .f32 := constant S_ .f32 0x7F800000#32
  let main_v10 : FVec F S31090x768 .f32 := broadcastInDim S31090x768 ![] bcast_S_S31090x768 main_cst_2
  let main_v11 : IVec S31090x768 1 := cmpf .olt main_v9 main_v10
  let main_c_3 : IVec S_ 1 := constantI S_ 1 1#1
  let main_v12 : IVec S_ 1 := (fun x v => Host.reduce IntOp.andi x v reducesTo_S31090x768_S_d0_1 h_S_) main_v11 main_c_3
  let main_v13 : IVec S_ 1 := andi main_v8 main_v12
  let main_v14 : FVec F S768x768 .f32 := Host.absf main_arg7
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S25000x350 : Shape := ⟨2, ![25000, 350]⟩
abbrev S25000x12 : Shape := ⟨2, ![25000, 12]⟩
abbrev S2x800000 : Shape := ⟨2, ![2, 800000]⟩
abbrev S800000 : Shape := ⟨1, ![800000]⟩
abbrev S31090x768 : Shape := ⟨2, ![31090, 768]⟩
abbrev S768x768 : Shape := ⟨2, ![768, 768]⟩
abbrev S768 : Shape := ⟨1, ![768]⟩
abbrev S128x128 : Shape := ⟨2, ![128, 128]⟩
abbrev S128 : Shape := ⟨1, ![128]⟩
abbrev S780x128 : Shape := ⟨2, ![780, 128]⟩
abbrev S128x64 : Shape := ⟨2, ![128, 64]⟩
abbrev S64 : Shape := ⟨1, ![64]⟩
abbrev S25000x1 : Shape := ⟨2, ![25000, 1]⟩
abbrev S25000 : Shape := ⟨1, ![25000]⟩
abbrev S_ : Shape := ⟨0, ![]⟩
abbrev S25000x768 : Shape := ⟨2, ![25000, 768]⟩
abbrev S768x128 : Shape := ⟨2, ![768, 128]⟩
abbrev S12x128 : Shape := ⟨2, ![12, 128]⟩
abbrev S1x800000 : Shape := ⟨2, ![1, 800000]⟩
abbrev S1x128 : Shape := ⟨2, ![1, 128]⟩
abbrev S2000x128 : Shape := ⟨2, ![2000, 128]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S25000x128 : Shape := ⟨2, ![25000, 128]⟩
abbrev S1x768 : Shape := ⟨2, ![1, 768]⟩
abbrev S1000x768 : Shape := ⟨2, ![1000, 768]⟩
abbrev S1000x12 : Shape := ⟨2, ![1000, 12]⟩
abbrev S1000x128 : Shape := ⟨2, ![1000, 128]⟩
abbrev S1x64 : Shape := ⟨2, ![1, 64]⟩
abbrev S25000x64 : Shape := ⟨2, ![25000, 64]⟩
abbrev S1000x64 : Shape := ⟨2, ![1000, 64]⟩

abbrev nBuf : Space → Nat
  | .hbm => 160
  | .vmem => 31
  | .smem => 0
  | _ => 0

abbrev hbmTy0_0 (i : Nat) : BufTy := match i % 128 with
  | 0 => ⟨S50000x128, .f32⟩
  | 1 => ⟨S25000x350, .i32⟩
  | 2 => ⟨S25000x12, .f32⟩
  | 3 => ⟨S2x800000, .i32⟩
  | 4 => ⟨S800000, .i32⟩
  | 5 => ⟨S800000, .i32⟩
  | 6 => ⟨S31090x768, .f32⟩
  | 7 => ⟨S768x768, .f32⟩
  | 8 => ⟨S768, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S780x128, .f32⟩
  | 15 => ⟨S128, .f32⟩
  | 16 => ⟨S128x128, .f32⟩
  | 17 => ⟨S128x128, .f32⟩
  | 18 => ⟨S128, .f32⟩
  | 19 => ⟨S128x64, .f32⟩
  | 20 => ⟨S64, .f32⟩
  | 21 => ⟨S25000x1, .i32⟩
  | 22 => ⟨S25000, .i32⟩
  | 23 => ⟨S_, .i32⟩
  | 24 => ⟨S25000, .i32⟩
  | 25 => ⟨S25000, .i1⟩
  | 26 => ⟨S_, .i32⟩
  | 27 => ⟨S25000, .i32⟩
  | 28 => ⟨S25000, .i32⟩
  | 29 => ⟨S25000, .i32⟩
  | 30 => ⟨S25000x1, .i32⟩
  | 31 => ⟨S25000x768, .f32⟩
  | 32 => ⟨S768x128, .f32⟩
  | 33 => ⟨S12x128, .f32⟩
  | 34 => ⟨S1x800000, .i32⟩
  | 35 => ⟨S800000, .i32⟩
  | 36 => ⟨S1x800000, .i32⟩
  | 37 => ⟨S800000, .i32⟩
  | 38 => ⟨S_, .f32⟩
  | 39 => ⟨S128, .f32⟩
  | 40 => ⟨S1x128, .f32⟩
  | 41 => ⟨S50000x128, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S800000, .f32⟩
  | 71 => ⟨S800000x1, .f32⟩
  | 72 => ⟨S50000x128, .bf16⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .bf16⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000, .f32⟩
  | 90 => ⟨S50000x1, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .f32⟩
  | 101 => ⟨S800000, .f32⟩
  | 102 => ⟨S_, .f32⟩
  | 103 => ⟨S25000, .f32⟩
  | 104 => ⟨S800000x1, .i32⟩
  | 105 => ⟨S25000, .f32⟩
  | 106 => ⟨S50000x128, .bf16⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .bf16⟩
  | 116 => ⟨S800000x128, .f32⟩
  | 117 => ⟨S_, .f32⟩
  | 118 => ⟨S25000x128, .f32⟩
  | 119 => ⟨S800000x1, .i32⟩
  | 120 => ⟨S25000x128, .f32⟩
  | 121 => ⟨S_, .f32⟩
  | 122 => ⟨S25000, .f32⟩
  | 123 => ⟨S25000, .f32⟩
  | 124 => ⟨S25000x1, .f32⟩
  | 125 => ⟨S25000x128, .f32⟩
  | 126 => ⟨S25000x128, .f32⟩
  | 127 => ⟨S1x768, .f32⟩
  | _ => ⟨S50000x128, .f32⟩

abbrev hbmTy0_1 (i : Nat) : BufTy := match i % 128 with
  | 0 => ⟨S1x128, .f32⟩
  | 1 => ⟨S25000x128, .f32⟩
  | 2 => ⟨S_, .f32⟩
  | 3 => ⟨S800000, .f32⟩
  | 4 => ⟨S_, .f32⟩
  | 5 => ⟨S25000, .f32⟩
  | 6 => ⟨S800000x1, .i32⟩
  | 7 => ⟨S25000, .f32⟩
  | 8 => ⟨S50000x128, .bf16⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .bf16⟩
  | 18 => ⟨S800000x128, .f32⟩
  | 19 => ⟨S_, .f32⟩
  | 20 => ⟨S25000x128, .f32⟩
  | 21 => ⟨S800000x1, .i32⟩
  | 22 => ⟨S25000x128, .f32⟩
  | 23 => ⟨S_, .f32⟩
  | 24 => ⟨S25000, .f32⟩
  | 25 => ⟨S25000, .f32⟩
  | 26 => ⟨S25000x1, .f32⟩
  | 27 => ⟨S25000x128, .f32⟩
  | 28 => ⟨S25000x128, .f32⟩
  | 29 => ⟨S1x128, .f32⟩
  | 30 => ⟨S1x64, .f32⟩
  | 31 => ⟨S25000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1000x768, .f32⟩
  | .local _ .vmem, ⟨7, _⟩ => ⟨S1000x768, .f32⟩
  | .local _ .vmem, ⟨8, _⟩ => ⟨S768x768, .f32⟩
  | .local _ .vmem, ⟨9, _⟩ => ⟨S1x768, .f32⟩
  | .local _ .vmem, ⟨10, _⟩ => ⟨S1000x12, .f32⟩
  | .local _ .vmem, ⟨11, _⟩ => ⟨S1000x12, .f32⟩
  | .local _ .vmem, ⟨12, _⟩ => ⟨S12x128, .f32⟩
  | .local _ .vmem, ⟨13, _⟩ => ⟨S1000x128, .f32⟩
  | .local _ .vmem, ⟨14, _⟩ => ⟨S1000x128, .f32⟩
  | .local _ .vmem, ⟨15, _⟩ => ⟨S128x128, .f32⟩
  | .local _ .vmem, ⟨16, _⟩ => ⟨S768x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S128x128, .f32⟩
  | .local _ .vmem, ⟨23, _⟩ => ⟨S1000x128, .f32⟩
  | .local _ .vmem, ⟨24, _⟩ => ⟨S1000x128, .f32⟩
  | .local _ .vmem, ⟨25, _⟩ => ⟨S128x128, .f32⟩
  | .local _ .vmem, ⟨26, _⟩ => ⟨S1x128, .f32⟩
  | .local _ .vmem, ⟨27, _⟩ => ⟨S128x64, .f32⟩
  | .local _ .vmem, ⟨28, _⟩ => ⟨S1x64, .f32⟩
  | .local _ .vmem, ⟨29, _⟩ => ⟨S1000x64, .f32⟩
  | .local _ .vmem, ⟨30, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_c_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_8 : Ref sig .tc := ⟨.hbm, 73, rfl⟩
abbrev main_v42 : Ref sig .tc := ⟨.hbm, 74, rfl⟩
abbrev main_v43 : Ref sig .tc := ⟨.hbm, 75, rfl⟩
abbrev main_c_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call0_cst : Ref sig .tc := ⟨.hbm, 97, rfl⟩
abbrev main_call0_v0 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_cst_12 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_16 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩
abbrev main_cst_18 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_19 : Ref sig .tc := ⟨.hbm, 137, rfl⟩
abbrev main_v93 : Ref sig .tc := ⟨.hbm, 138, rfl⟩
abbrev main_v94 : Ref sig .tc := ⟨.hbm, 139, rfl⟩
abbrev main_c_20 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_22 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x12 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S12x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S768x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S25000x350_S25000x1_0_0 : S25000x350.Slices ![0, 0] S25000x1
  shapeCasts_S25000x1_S25000 : S25000x1.ShapeCasts S25000
  bcast_S_S25000 : S_.BroadcastsInDim S25000 (![] : Fin 0 → Fin S25000.rank)
  bcast_S25000_S25000x1_0 : S25000.BroadcastsInDim S25000x1 (![0] : Fin 1 → Fin S25000x1.rank)
  slices_S780x128_S768x128_0_0 : S780x128.Slices ![0, 0] S768x128
  slices_S780x128_S12x128_768_0 : S780x128.Slices ![768, 0] S12x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S25000x128 : S_.BroadcastsInDim S25000x128 (![] : Fin 0 → Fin S25000x128.rank)
  bcast_S25000x1_S25000x128_0_1 : S25000x1.BroadcastsInDim S25000x128 (![0, 1] : Fin 2 → Fin S25000x128.rank)
  shapeCasts_S768_S1x768 : S768.ShapeCasts S1x768
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1000x12_S1000x12_0_0 : ∀ a, (![0, 0] : Fin 2 → Nat) a + S1000x12.size a ≤ S1000x12.size a
  h_S1000x12 : 0 < S1000x12.numel
  inb_S12x128_S12x128_0_0 : ∀ a, (![0, 0] : Fin 2 → Nat) a + S12x128.size a ≤ S12x128.size a
  h_S12x128 : 0 < S12x128.numel
  shapeCasts_S12x128_S12x128 : S12x128.ShapeCasts S12x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  gather_S31090x768_S25000x1_S25000x768_1_0_n_n_0_1_1768_wf : GatherDims.WF S31090x768 S25000x1 S25000x768 [1] [0] [] [0] [] 1 ![1, 768]
  dot_S2000x128_S128x128_S2000x128_1_0_0_1_n_n_wf : DotDims.WF S2000x128 S128x128 S2000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S25000_S800000x1_S800000_n_0_0_1_wf : ScatterDims.WF S25000 S800000x1 S800000 [] [0] [0] 1
  scatter_S25000x128_S800000x1_S800000x128_1_0_0_1_wf : ScatterDims.WF S25000x128 S800000x1 S800000x128 [1] [0] [0] 1
  dot_S1000x768_S768x768_S1000x768_1_0_0_1_n_n_wf : DotDims.WF S1000x768 S768x768 S1000x768 [1] [0] [0] [1] [] []
  dot_S1000x768_S768x128_S1000x128_1_0_0_1_n_n_wf : DotDims.WF S1000x768 S768x128 S1000x128 [1] [0] [0] [1] [] []
  dot_S1000x12_S12x128_S1000x128_1_0_0_1_n_n_wf : DotDims.WF S1000x12 S12x128 S1000x128 [1] [0] [0] [1] [] []
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S25000x768.size a
  hwx1_0 : ∀ i : grid1.Coords, EltTy.bits .f32 = 32 ∨ (Rect.block (s := S25000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .f32 = 32 ∨ (Rect.block (s := S768x768) S768x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x12.size a ≤ S25000x12.size a
  hwx1_3 : ∀ i : grid1.Coords, EltTy.bits .f32 = 32 ∨ (Rect.block (s := S25000x12) S1000x12.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S12x128.size a ≤ S12x128.size a
  hwx1_4 : ∀ i : grid1.Coords, EltTy.bits .f32 = 32 ∨ (Rect.block (s := S12x128) S12x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S25000x128.size a
  hwx1_5 : ∀ i : grid1.Coords, EltTy.bits .f32 = 32 ∨ (Rect.block (s := S25000x128) S1000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S768x128.size a ≤ S768x128.size a
  hwx1_7 : ∀ i : grid1.Coords, EltTy.bits .f32 = 32 ∨ (Rect.block (s := S768x128) S768x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S25000x128.size a
  hwx1_9 : ∀ i : grid1.Coords, EltTy.bits .f32 = 32 ∨ (Rect.block (s := S25000x128) S1000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S25000x128.size a
  hwx2_0 : ∀ i : grid2.Coords, EltTy.bits .f32 = 32 ∨ (Rect.block (s := S25000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S25000x128.size a
  hwx2_2 : ∀ i : grid2.Coords, EltTy.bits .f32 = 32 ∨ (Rect.block (s := S25000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x64.size a ≤ S25000x64.size a
  hwx2_7 : ∀ i : grid2.Coords, EltTy.bits .f32 = 32 ∨ (Rect.block (s := S25000x64) S1000x64.size (cc2_transform_7 i) (hinb2_7 i)).WholeWords (EltTy.packing .f32)

variable [Facts₀]

def gather_S31090x768_S25000x1_S25000x768_1_0_n_n_0_1_1768 : GatherDims S31090x768 S25000x1 S25000x768 where
  offsetDims := [1]
  collapsedSliceDims := [0]
  operandBatchingDims := []
  startIndicesBatchingDims := []
  startIndexMap := [0]
  indexVectorDim := 1
  sliceSizes := ![1, 768]
  wf := gather_S31090x768_S25000x1_S25000x768_1_0_n_n_0_1_1768_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def dot_S1000x768_S768x128_S1000x128_1_0_0_1_n_n : DotDims S1000x768 S768x128 S1000x128 where
  lhsContracting := [1]
  rhsContracting := [0]
  lhsNonContracting := [0]
  rhsNonContracting := [1]
  lhsBatch := []
  rhsBatch := []
  wf := dot_S1000x768_S768x128_S1000x128_1_0_0_1_n_n_wf
def dot_S1000x12_S12x128_S1000x128_1_0_0_1_n_n : DotDims S1000x12 S12x128 S1000x128 where
  lhsContracting := [1]
  rhsContracting := [0]
  lhsNonContracting := [0]
  rhsNonContracting := [1]
  lhsBatch := []
  rhsBatch := []
  wf := dot_S1000x12_S12x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v85) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1000x12.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S12x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v84) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S768x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v86) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v87) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v108) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v109) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v110) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v111) S1000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S25000x350 : Shape := ⟨2, ![25000, 350]⟩
abbrev S25000x12 : Shape := ⟨2, ![25000, 12]⟩
abbrev S2x800000 : Shape := ⟨2, ![2, 800000]⟩
abbrev S800000 : Shape := ⟨1, ![800000]⟩
abbrev S31090x768 : Shape := ⟨2, ![31090, 768]⟩
abbrev S768x768 : Shape := ⟨2, ![768, 768]⟩
abbrev S768 : Shape := ⟨1, ![768]⟩
abbrev S128x128 : Shape := ⟨2, ![128, 128]⟩
abbrev S128 : Shape := ⟨1, ![128]⟩
abbrev S780x128 : Shape := ⟨2, ![780, 128]⟩
abbrev S128x64 : Shape := ⟨2, ![128, 64]⟩
abbrev S64 : Shape := ⟨1, ![64]⟩
abbrev S25000x1 : Shape := ⟨2, ![25000, 1]⟩
abbrev S25000 : Shape := ⟨1, ![25000]⟩
abbrev S_ : Shape := ⟨0, ![]⟩
abbrev S25000x768 : Shape := ⟨2, ![25000, 768]⟩
abbrev S1x768 : Shape := ⟨2, ![1, 768]⟩
abbrev S25000x780 : Shape := ⟨2, ![25000, 780]⟩
abbrev S1x800000 : Shape := ⟨2, ![1, 800000]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S25000x128 : Shape := ⟨2, ![25000, 128]⟩
abbrev S25000x64 : Shape := ⟨2, ![25000, 64]⟩
abbrev S1x64 : Shape := ⟨2, ![1, 64]⟩

abbrev nBuf : Space → Nat
  | .hbm => 228
  | .vmem => 0
  | .smem => 0
  | _ => 0

abbrev hbmTy0_0 (i : Nat) : BufTy := match i % 128 with
  | 0 => ⟨S50000x128, .f32⟩
  | 1 => ⟨S25000x350, .i32⟩
  | 2 => ⟨S25000x12, .f32⟩
  | 3 => ⟨S2x800000, .i32⟩
  | 4 => ⟨S800000, .i32⟩
  | 5 => ⟨S800000, .i32⟩
  | 6 => ⟨S31090x768, .f32⟩
  | 7 => ⟨S768x768, .f32⟩
  | 8 => ⟨S768, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S780x128, .f32⟩
  | 15 => ⟨S128, .f32⟩
  | 16 => ⟨S128x128, .f32⟩
  | 17 => ⟨S128x128, .f32⟩
  | 18 => ⟨S128, .f32⟩
  | 19 => ⟨S128x64, .f32⟩
  | 20 => ⟨S64, .f32⟩
  | 21 => ⟨S25000x1, .i32⟩
  | 22 => ⟨S25000, .i32⟩
  | 23 => ⟨S_, .i32⟩
  | 24 => ⟨S25000, .i32⟩
  | 25 => ⟨S25000, .i1⟩
  | 26 => ⟨S_, .i32⟩
  | 27 => ⟨S25000, .i32⟩
  | 28 => ⟨S25000, .i32⟩
  | 29 => ⟨S25000, .i32⟩
  | 30 => ⟨S25000x1, .i32⟩
  | 31 => ⟨S25000x768, .f32⟩
  | 32 => ⟨S25000x768, .f32⟩
  | 33 => ⟨S1x768, .f32⟩
  | 34 => ⟨S25000x768, .f32⟩
  | 35 => ⟨S25000x768, .f32⟩
  | 36 => ⟨S25000x768, .f32⟩
  | 37 => ⟨S25000x780, .f32⟩
  | 38 => ⟨S1x800000, .i32⟩
  | 39 => ⟨S800000, .i32⟩
  | 40 => ⟨S1x800000, .i32⟩
  | 41 => ⟨S800000, .i32⟩
  | 42 => ⟨S50000x128, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S800000, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000, .f32⟩
  | 89 => ⟨S50000x1, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S800000, .f32⟩
  | 101 => ⟨S_, .f32⟩
  | 102 => ⟨S25000, .f32⟩
  | 103 => ⟨S800000x1, .i32⟩
  | 104 => ⟨S25000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S25000x128, .f32⟩
  | 116 => ⟨S800000x1, .i32⟩
  | 117 => ⟨S25000x128, .f32⟩
  | 118 => ⟨S_, .f32⟩
  | 119 => ⟨S25000, .f32⟩
  | 120 => ⟨S25000, .f32⟩
  | 121 => ⟨S25000x1, .f32⟩
  | 122 => ⟨S25000x128, .f32⟩
  | 123 => ⟨S25000x128, .f32⟩
  | 124 => ⟨S25000x128, .f32⟩
  | 125 => ⟨S25000x128, .f32⟩
  | 126 => ⟨S25000x128, .f32⟩
  | 127 => ⟨S1x128, .f32⟩
  | _ => ⟨S50000x128, .f32⟩

abbrev hbmTy0_1 (i : Nat) : BufTy := match i % 128 with
  | 0 => ⟨S25000x128, .f32⟩
  | 1 => ⟨S25000x128, .f32⟩
  | 2 => ⟨S_, .f32⟩
  | 3 => ⟨S25000x128, .f32⟩
  | 4 => ⟨S25000x128, .f32⟩
  | 5 => ⟨S50000x128, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000, .f32⟩
  | 52 => ⟨S50000x1, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .f32⟩
  | 63 => ⟨S800000, .f32⟩
  | 64 => ⟨S_, .f32⟩
  | 65 => ⟨S25000, .f32⟩
  | 66 => ⟨S800000x1, .i32⟩
  | 67 => ⟨S25000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S25000x128, .f32⟩
  | 79 => ⟨S800000x1, .i32⟩
  | 80 => ⟨S25000x128, .f32⟩
  | 81 => ⟨S_, .f32⟩
  | 82 => ⟨S25000, .f32⟩
  | 83 => ⟨S25000, .f32⟩
  | 84 => ⟨S25000x1, .f32⟩
  | 85 => ⟨S25000x128, .f32⟩
  | 86 => ⟨S25000x128, .f32⟩
  | 87 => ⟨S25000x128, .f32⟩
  | 88 => ⟨S25000x128, .f32⟩
  | 89 => ⟨S25000x128, .f32⟩
  | 90 => ⟨S1x128, .f32⟩
  | 91 => ⟨S25000x128, .f32⟩
  | 92 => ⟨S25000x128, .f32⟩
  | 93 => ⟨S_, .f32⟩
  | 94 => ⟨S25000x128, .f32⟩
  | 95 => ⟨S25000x128, .f32⟩
  | 96 => ⟨S25000x64, .f32⟩
  | 97 => ⟨S1x64, .f32⟩
  | 98 => ⟨S25000x64, .f32⟩
  | 99 => ⟨S25000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_cst_1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_7 : Ref sig .tc := ⟨.hbm, 73, rfl⟩
abbrev main_v43 : Ref sig .tc := ⟨.hbm, 74, rfl⟩
abbrev main_v44 : Ref sig .tc := ⟨.hbm, 75, rfl⟩
abbrev main_c_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call0_cst : Ref sig .tc := ⟨.hbm, 96, rfl⟩
abbrev main_call0_v0 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_cst_11 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_12 : Ref sig .tc := ⟨.hbm, 105, rfl⟩
abbrev main_v68 : Ref sig .tc := ⟨.hbm, 106, rfl⟩
abbrev main_v69 : Ref sig .tc := ⟨.hbm, 107, rfl⟩
abbrev main_c_13 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_15 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call1_cst : Ref sig .tc := ⟨.hbm, 130, rfl⟩
abbrev main_call1_v0 : Ref sig .tc := ⟨.hbm, 131, rfl⟩
abbrev main_v89 : Ref sig .tc := ⟨.hbm, 132, rfl⟩
abbrev main_v90 : Ref sig .tc := ⟨.hbm, 133, rfl⟩
abbrev main_cst_16 : Ref sig .tc := ⟨.hbm, 134, rfl⟩
abbrev main_v91 : Ref sig .tc := ⟨.hbm, 135, rfl⟩
abbrev main_cst_17 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_18 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_19 : Ref sig .tc := ⟨.hbm, 144, rfl⟩
abbrev main_v98 : Ref sig .tc := ⟨.hbm, 145, rfl⟩
abbrev main_v99 : Ref sig .tc := ⟨.hbm, 146, rfl⟩
abbrev main_c_20 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_21 : Ref sig .tc := ⟨.hbm, 153, rfl⟩
abbrev main_v105 : Ref sig .tc := ⟨.hbm, 154, rfl⟩
abbrev main_v106 : Ref sig .tc := ⟨.hbm, 155, rfl⟩
abbrev main_c_22 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_23 : Ref sig .tc := ⟨.hbm, 164, rfl⟩
abbrev main_v114 : Ref sig .tc := ⟨.hbm, 165, rfl⟩
abbrev main_v115 : Ref sig .tc := ⟨.hbm, 166, rfl⟩
abbrev main_c_24 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_25 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_call2_cst : Ref sig .tc := ⟨.hbm, 187, rfl⟩
abbrev main_call2_v0 : Ref sig .tc := ⟨.hbm, 188, rfl⟩
abbrev main_v134 : Ref sig .tc := ⟨.hbm, 189, rfl⟩
abbrev main_cst_26 : Ref sig .tc := ⟨.hbm, 190, rfl⟩
abbrev main_v135 : Ref sig .tc := ⟨.hbm, 191, rfl⟩
abbrev main_cst_27 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_c_28 : Ref sig .tc := ⟨.hbm, 196, rfl⟩
abbrev main_v139 : Ref sig .tc := ⟨.hbm, 197, rfl⟩
abbrev main_v140 : Ref sig .tc := ⟨.hbm, 198, rfl⟩
abbrev main_c_29 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_30 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_31 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_call3_cst : Ref sig .tc := ⟨.hbm, 221, rfl⟩
abbrev main_call3_v0 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩

abbrev nD : Nat := 1
abbrev τ : Topo := Topo.v7x

variable {F : FTy → Type} [FloatOps F]

class Facts₀ : Prop where
  slices_S25000x350_S25000x1_0_0 : S25000x350.Slices ![0, 0] S25000x1
  shapeCasts_S25000x1_S25000 : S25000x1.ShapeCasts S25000
  bcast_S_S25000 : S_.BroadcastsInDim S25000 (![] : Fin 0 → Fin S25000.rank)
  bcast_S25000_S25000x1_0 : S25000.BroadcastsInDim S25000x1 (![0] : Fin 1 → Fin S25000x1.rank)
  bcast_S768_S1x768_1 : S768.BroadcastsInDim S1x768 (![1] : Fin 1 → Fin S1x768.rank)
  bcast_S1x768_S25000x768_0_1 : S1x768.BroadcastsInDim S25000x768 (![0, 1] : Fin 2 → Fin S25000x768.rank)
  concatenates_S25000x768_S25000x12_S25000x780_d1 : Shape.Concatenates [S25000x768, S25000x12] S25000x780 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S25000x128 : S_.BroadcastsInDim S25000x128 (![] : Fin 0 → Fin S25000x128.rank)
  bcast_S25000x1_S25000x128_0_1 : S25000x1.BroadcastsInDim S25000x128 (![0, 1] : Fin 2 → Fin S25000x128.rank)
  bcast_S1x128_S25000x128_0_1 : S1x128.BroadcastsInDim S25000x128 (![0, 1] : Fin 2 → Fin S25000x128.rank)
  bcast_S64_S1x64_1 : S64.BroadcastsInDim S1x64 (![1] : Fin 1 → Fin S1x64.rank)
  bcast_S1x64_S25000x64_0_1 : S1x64.BroadcastsInDim S25000x64 (![0, 1] : Fin 2 → Fin S25000x64.rank)
  gather_S31090x768_S25000x1_S25000x768_1_0_n_n_0_1_1768_wf : GatherDims.WF S31090x768 S25000x1 S25000x768 [1] [0] [] [0] [] 1 ![1, 768]
  dot_S25000x768_S768x768_S25000x768_1_0_0_1_n_n_wf : DotDims.WF S25000x768 S768x768 S25000x768 [1] [0] [0] [1] [] []
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S25000_S800000x1_S800000_n_0_0_1_wf : ScatterDims.WF S25000 S800000x1 S800000 [] [0] [0] 1
  scatter_S25000x128_S800000x1_S800000x128_1_0_0_1_wf : ScatterDims.WF S25000x128 S800000x1 S800000x128 [1] [0] [0] 1
  dot_S25000x128_S128x128_S25000x128_1_0_0_1_n_n_wf : DotDims.WF S25000x128 S128x128 S25000x128 [1] [0] [0] [1] [] []
  dot_S25000x780_S780x128_S25000x128_1_0_0_1_n_n_wf : DotDims.WF S25000x780 S780x128 S25000x128 [1] [0] [0] [1] [] []
  dot_S25000x128_S128x64_S25000x64_1_0_0_1_n_n_wf : DotDims.WF S25000x128 S128x64 S25000x64 [1] [0] [0] [1] [] []

variable [Facts₀]

def gather_S31090x768_S25000x1_S25000x768_1_0_n_n_0_1_1768 : GatherDims S31090x768 S25000x1 S25000x768 where
  offsetDims := [1]
  collapsedSliceDims := [0]
  operandBatchingDims := []
  startIndicesBatchingDims := []
  startIndexMap := [0]
  indexVectorDim := 1
  sliceSizes := ![1, 768]
  wf := gather_S31090x768_S25000x1_S25000x768_1_0_n_n_0_1_1768_wf
def dot_S25000x768_S768x768_S25000x768_1_0_0_1_n_n : DotDims S25000x768 S768x768 S25000x768 where
  lhsContracting := [1]
  rhsContracting := [0]
  lhsNonContracting := [0]
  rhsNonContracting := [1]
  lhsBatch := []
  rhsBatch := []
  wf := dot_S25000x768_S768x768_S25000x768_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def dot_S25000x780_S780x128_S25000x128_1_0_0_1_n_n : DotDims S25000x780 S780x128 S25000x128 where
  lhsContracting := [1]
  rhsContracting := [0]
  lhsNonContracting := [0]
  rhsNonContracting := [1]
  lhsBatch := []
  rhsBatch := []
  wf := dot_S25000x780_S780x128_S25000x128_1_0_0_1_n_n_wf
def dot_S25000x128_S128x64_S25000x64_1_0_0_1_n_n : DotDims S25000x128 S128x64 S25000x64 where
  lhsContracting := [1]
  rhsContracting := [0]
  lhsNonContracting := [0]
  rhsNonContracting := [1]
  lhsBatch := []
  rhsBatch := []
  wf := dot_S25000x128_S128x64_S25000x64_1_0_0_1_n_n_wf

class Facts : Prop extends Facts₀ where

variable [Facts]
-- ==== Proof.KernelRun.lean ====
/-
  The kernel program's run with its result named.

  The program is a chain of eight segments: a stretch of host operations, the first dense stage, three stretches, the
  second dense stage, a stretch, the third dense stage. Every weakly fair execution passes through them in order; at
  each boundary every buffer outside a stage's scratch space holds a known array: after a host stretch, what its
  operations compute from the boundary before; after a dense stage, the stage's arrays as its write-backs leave
  them and everything else untouched. So at the end EVERY such buffer holds the last boundary's array at that
  buffer (`run_all`); in particular the returned buffer does, and every argument holds what it was launched with
  (`run_named`).
-/
import proofs.«113858_j52561809768706_2_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer outside the stages' scratch space ends
    at the last boundary's contents. The chain of segments is run from the launch memory: the launch hands each core
    its buffers at the first boundary's contents, its generator register and an empty debt; each segment's exit
    state is the next one's entry state; the last state is read against the final memory, buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The returned buffer ends at the last boundary's contents, and every argument array as launched: no host operation
    and no stage writes an argument. -/
theorem run_named : θ_run defs (onTc (τ := τ) (main (F := F))) ⟨m, fun _ => 0, ρ⟩ (fun r => ∀ c : Dev nD,
      r.2.mem ((c.tc : Thread nD τ).loc main_v111) = W8 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun s h c =>
      ⟨h c _ (mem_uc main_v111 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩)
    (run_all m ρ)

end Cert.Bridge

end
-- ==== Proof.Dense.lean ====
/-
  The three dense stages of the network, entry by entry, over the extended reals.

  Every stage is built from one operation: entry `(p, q)` of a matrix product is the sum over the shared axis of the
  products of row `p` of the left factor and column `q` of the right one. A bias is a single row, added to every row
  of a product. The row count `M` is a parameter: a stage reads, for output row `p`, only row `p` of each of its
  row-indexed operands, so the same definition describes one block of rows and the whole array.

  * `proj x w b        = x·w + b`
  * `sage0 …           = max (((tanh (cls·Wp + bp))·Wra + feat·Wrb) + mean·Wl + b, 0)`
  * `sage1lin …        = (max ((mean·Wl + p·Wr) + b, 0))·L + lb`
-/
import Idealize.ShloMosaic.PureOps.Ideal
import Idealize.ShloMosaic.Lib.ValueIdx

noncomputable section

open Idealize.ShloMosaic Idealize.ShloMosaic.ValueIdx
open scoped BigOperators

namespace Cert.Dense

/-- A matrix of extended reals with `m` rows and `n` columns, as a function of the rank-2 index. -/
abbrev Mat (m n : Nat) : Type := (⟨2, ![m, n]⟩ : Shape).Idx → EReal

/-- Entry `(p, q)` of the product of an `M×K` and a `K×N` matrix. -/
def mm {M K N : Nat} (x : Mat M K) (y : Mat K N) (p : Fin M) (q : Fin N) : EReal :=
  ∑ k : Fin K, x (ix2 p k) * y (ix2 k q)

/-- `x·w + b`: the bias row `b` added to every row of the product. -/
def proj {M K N : Nat} (x : Mat M K) (w : Mat K N) (b : Mat 1 N) : Mat M N :=
  fun i => mm x w (i 0) (i 1) + b (ix2 0 (i 1))

/-- `tanh (cls·Wp + bp)`, entry by entry. -/
def pooled {M D : Nat} (cls : Mat M D) (wp : Mat D D) (bp : Mat 1 D) : Mat M D :=
  fun i => Ideal.tanh (mm cls wp (i 0) (i 1) + bp (ix2 0 (i 1)))

/-- The first paper layer: `max (((pooled·Wra + feat·Wrb) + mean·Wl) + b, 0)`. -/
def sage0 {M D E H A : Nat} (cls : Mat M D) (wp : Mat D D) (bp : Mat 1 D) (feat : Mat M E) (wrb : Mat E H)
    (mean : Mat M A) (wl : Mat A H) (wra : Mat D H) (b : Mat 1 H) : Mat M H :=
  fun i => max (((mm (pooled cls wp bp) wra (i 0) (i 1) + mm feat wrb (i 0) (i 1)) + mm mean wl (i 0) (i 1))
    + b (ix2 0 (i 1))) 0

/-- The second paper layer before the head: `max ((mean·Wl + p·Wr) + b, 0)`. -/
def hidden1 {M A H : Nat} (mean : Mat M A) (wl : Mat A H) (p : Mat M A) (wr : Mat A H) (b : Mat 1 H) : Mat M H :=
  fun i => max ((mm mean wl (i 0) (i 1) + mm p wr (i 0) (i 1)) + b (ix2 0 (i 1))) 0

/-- The second paper layer followed by the linear head: `hidden1·L + lb`. -/
def sage1lin {M A H O : Nat} (mean : Mat M A) (wl : Mat A H) (p : Mat M A) (wr : Mat A H) (b : Mat 1 H)
    (lw : Mat H O) (lb : Mat 1 O) : Mat M O :=
  fun i => mm (hidden1 mean wl p wr b) lw (i 0) (i 1) + lb (ix2 0 (i 1))

end Cert.Dense

end
-- ==== Proof.LibMatmulAt.lean ====
/-
  A matrix product read at an entry.

  A product unit whose dimension numbers contract the columns of the left factor with the rows of the right factor,
  accumulating into zeros, holds at entry `(p, q)` the sum over the shared axis `k` of `x (p, k) · y (k, q)`: the
  contraction index has a single coordinate, which is re-indexed to `k`; the zero accumulator adds nothing. The same
  holds of the host's product, which has no accumulator.
-/
import Idealize.ShloMosaic.PureOps.Ideal.Laws
import Idealize.ShloMosaic.Lib.ValueIdx
import proofs.«113858_j52561809768706_2_alg».proof.Proof.Dense

noncomputable section

open Idealize.ShloMosaic Idealize.ShloMosaic.ValueIdx
open scoped BigOperators

namespace Cert.Dense

/-- The two operand indices of a contraction of the left columns with the right rows, at contraction coordinate `k`. -/
theorem dot_operand_idx {M K N : Nat} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (i : (⟨2, ![M, N]⟩ : Shape).Idx) (k : Fin K) :
    d.lhsIdx i ((contrEquiv1 d K hr hs).symm k) = ix2 (i 0) k
    ∧ d.rhsIdx i ((contrEquiv1 d K hr hs).symm k) = ix2 k (i 1) := by
  have hk := contrEquiv1_symm_val d K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The product unit into a zero accumulator, at an entry. -/
theorem matmul_zero_eq_mm {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (x : FVec Ideal ⟨2, ![M, K]⟩ φ₁) (y : FVec Ideal ⟨2, ![K, N]⟩ φ₂) (i : (⟨2, ![M, N]⟩ : Shape).Idx) :
    matmul (F := Ideal) d none x y (constant ⟨2, ![M, N]⟩ .f32 0x00000000#32) i = mm x y (i 0) (i 1) := by
  simp only [matmul]
  rw [Ideal.matmul_constant_zero_apply, ← Equiv.sum_comp (contrEquiv1 d K hr hs).symm]
  unfold mm
  refine Finset.sum_congr rfl fun k _ => ?_
  obtain ⟨el, er⟩ := dot_operand_idx d hr hs hl0 hl1 hr0 hr1 i k
  rw [el, er]
  rfl

/-- The host's product, at an entry. -/
theorem dotGeneral_eq_mm {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (x : FVec Ideal ⟨2, ![M, K]⟩ φ₁) (y : FVec Ideal ⟨2, ![K, N]⟩ φ₂) (i : (⟨2, ![M, N]⟩ : Shape).Idx) :
    Host.dotGeneral (F := Ideal) d none x y i = mm x y (i 0) (i 1) := by
  simp only [Host.dotGeneral]
  rw [Ideal.dotGeneral_apply, ← Equiv.sum_comp (contrEquiv1 d K hr hs).symm]
  unfold mm
  refine Finset.sum_congr rfl fun k _ => ?_
  obtain ⟨el, er⟩ := dot_operand_idx d hr hs hl0 hl1 hr0 hr1 i k
  rw [el, er]
  rfl

end Cert.Dense

end
-- ==== Proof.MatmulFacts.lean ====
/-
  Each product unit of the three kernel bodies, read at an entry: all six contract the columns of the left factor
  with the rows of the right one (the four coordinate facts are read off each dimension record), so each is the
  entry of the matrix product.
-/
import proofs.«113858_j52561809768706_2_alg».proof.Proof.Gen.KernelIdeal
import proofs.«113858_j52561809768706_2_alg».proof.Proof.LibMatmulAt

noncomputable section

open Idealize.ShloMosaic Idealize.ShloMosaic.ValueIdx Cert.KernelIdeal

namespace Cert.Dense

theorem mm_dot_S2000x128_S128x128_S2000x128_1_0_0_1_n_n {φ₁ φ₂ : FTy} (x : FVec Ideal S2000x128 φ₁) (y : FVec Ideal S128x128 φ₂) (i : S2000x128.Idx) :
    matmul (F := Ideal) dot_S2000x128_S128x128_S2000x128_1_0_0_1_n_n none x y (constant S2000x128 .f32 0x00000000#32) i = mm x y (i 0) (i 1) :=
  matmul_zero_eq_mm dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    x y i

theorem mm_dot_S1000x768_S768x768_S1000x768_1_0_0_1_n_n {φ₁ φ₂ : FTy} (x : FVec Ideal S1000x768 φ₁) (y : FVec Ideal S768x768 φ₂) (i : S1000x768.Idx) :
    matmul (F := Ideal) dot_S1000x768_S768x768_S1000x768_1_0_0_1_n_n none x y (constant S1000x768 .f32 0x00000000#32) i = mm x y (i 0) (i 1) :=
  matmul_zero_eq_mm dot_S1000x768_S768x768_S1000x768_1_0_0_1_n_n rfl rfl
    (fun i q => by
      unfold DotDims.lhsIdx
      rw [dif_neg (show ¬(0 : Fin S1000x768.rank) ∈ dot_S1000x768_S768x768_S1000x768_1_0_0_1_n_n.lhsBatch by decide), dif_pos (show (0 : Fin S1000x768.rank) ∈ dot_S1000x768_S768x768_S1000x768_1_0_0_1_n_n.lhsNonContracting by decide)]
      rfl)
    (fun i q => dot_S1000x768_S768x768_S1000x768_1_0_0_1_n_n.lhsIdx_val_of_single rfl i q)
    (fun i q => dot_S1000x768_S768x768_S1000x768_1_0_0_1_n_n.rhsIdx_val_of_single rfl i q)
    (fun i q => by
      unfold DotDims.rhsIdx
      rw [dif_neg (show ¬(1 : Fin S768x768.rank) ∈ dot_S1000x768_S768x768_S1000x768_1_0_0_1_n_n.rhsBatch by decide), dif_pos (show (1 : Fin S768x768.rank) ∈ dot_S1000x768_S768x768_S1000x768_1_0_0_1_n_n.rhsNonContracting by decide)]
      rfl)
    x y i

theorem mm_dot_S1000x768_S768x128_S1000x128_1_0_0_1_n_n {φ₁ φ₂ : FTy} (x : FVec Ideal S1000x768 φ₁) (y : FVec Ideal S768x128 φ₂) (i : S1000x128.Idx) :
    matmul (F := Ideal) dot_S1000x768_S768x128_S1000x128_1_0_0_1_n_n none x y (constant S1000x128 .f32 0x00000000#32) i = mm x y (i 0) (i 1) :=
  matmul_zero_eq_mm dot_S1000x768_S768x128_S1000x128_1_0_0_1_n_n rfl rfl
    (fun i q => by
      unfold DotDims.lhsIdx
      rw [dif_neg (show ¬(0 : Fin S1000x768.rank) ∈ dot_S1000x768_S768x128_S1000x128_1_0_0_1_n_n.lhsBatch by decide), dif_pos (show (0 : Fin S1000x768.rank) ∈ dot_S1000x768_S768x128_S1000x128_1_0_0_1_n_n.lhsNonContracting by decide)]
      rfl)
    (fun i q => dot_S1000x768_S768x128_S1000x128_1_0_0_1_n_n.lhsIdx_val_of_single rfl i q)
    (fun i q => dot_S1000x768_S768x128_S1000x128_1_0_0_1_n_n.rhsIdx_val_of_single rfl i q)
    (fun i q => by
      unfold DotDims.rhsIdx
      rw [dif_neg (show ¬(1 : Fin S768x128.rank) ∈ dot_S1000x768_S768x128_S1000x128_1_0_0_1_n_n.rhsBatch by decide), dif_pos (show (1 : Fin S768x128.rank) ∈ dot_S1000x768_S768x128_S1000x128_1_0_0_1_n_n.rhsNonContracting by decide)]
      rfl)
    x y i

theorem mm_dot_S1000x12_S12x128_S1000x128_1_0_0_1_n_n {φ₁ φ₂ : FTy} (x : FVec Ideal S1000x12 φ₁) (y : FVec Ideal S12x128 φ₂) (i : S1000x128.Idx) :
    matmul (F := Ideal) dot_S1000x12_S12x128_S1000x128_1_0_0_1_n_n none x y (constant S1000x128 .f32 0x00000000#32) i = mm x y (i 0) (i 1) :=
  matmul_zero_eq_mm dot_S1000x12_S12x128_S1000x128_1_0_0_1_n_n rfl rfl
    (fun i q => by
      unfold DotDims.lhsIdx
      rw [dif_neg (show ¬(0 : Fin S1000x12.rank) ∈ dot_S1000x12_S12x128_S1000x128_1_0_0_1_n_n.lhsBatch by decide), dif_pos (show (0 : Fin S1000x12.rank) ∈ dot_S1000x12_S12x128_S1000x128_1_0_0_1_n_n.lhsNonContracting by decide)]
      rfl)
    (fun i q => dot_S1000x12_S12x128_S1000x128_1_0_0_1_n_n.lhsIdx_val_of_single rfl i q)
    (fun i q => dot_S1000x12_S12x128_S1000x128_1_0_0_1_n_n.rhsIdx_val_of_single rfl i q)
    (fun i q => by
      unfold DotDims.rhsIdx
      rw [dif_neg (show ¬(1 : Fin S12x128.rank) ∈ dot_S1000x12_S12x128_S1000x128_1_0_0_1_n_n.rhsBatch by decide), dif_pos (show (1 : Fin S12x128.rank) ∈ dot_S1000x12_S12x128_S1000x128_1_0_0_1_n_n.rhsNonContracting by decide)]
      rfl)
    x y i

theorem mm_dot_S1000x128_S128x128_S1000x128_1_0_0_1_n_n {φ₁ φ₂ : FTy} (x : FVec Ideal S1000x128 φ₁) (y : FVec Ideal S128x128 φ₂) (i : S1000x128.Idx) :
    matmul (F := Ideal) dot_S1000x128_S128x128_S1000x128_1_0_0_1_n_n none x y (constant S1000x128 .f32 0x00000000#32) i = mm x y (i 0) (i 1) :=
  matmul_zero_eq_mm dot_S1000x128_S128x128_S1000x128_1_0_0_1_n_n rfl rfl
    (fun i q => by
      unfold DotDims.lhsIdx
      rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
      rfl)
    (fun i q => dot_S1000x128_S128x128_S1000x128_1_0_0_1_n_n.lhsIdx_val_of_single rfl i q)
    (fun i q => dot_S1000x128_S128x128_S1000x128_1_0_0_1_n_n.rhsIdx_val_of_single rfl i q)
    (fun i q => by
      unfold DotDims.rhsIdx
      rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
      rfl)
    x y i

theorem mm_dot_S1000x128_S128x64_S1000x64_1_0_0_1_n_n {φ₁ φ₂ : FTy} (x : FVec Ideal S1000x128 φ₁) (y : FVec Ideal S128x64 φ₂) (i : S1000x64.Idx) :
    matmul (F := Ideal) dot_S1000x128_S128x64_S1000x64_1_0_0_1_n_n none x y (constant S1000x64 .f32 0x00000000#32) i = mm x y (i 0) (i 1) :=
  matmul_zero_eq_mm dot_S1000x128_S128x64_S1000x64_1_0_0_1_n_n rfl rfl
    (fun i q => by
      unfold DotDims.lhsIdx
      rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
      rfl)
    (fun i q => dot_S1000x128_S128x64_S1000x64_1_0_0_1_n_n.lhsIdx_val_of_single rfl i q)
    (fun i q => dot_S1000x128_S128x64_S1000x64_1_0_0_1_n_n.rhsIdx_val_of_single rfl i q)
    (fun i q => by
      unfold DotDims.rhsIdx
      rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
      rfl)
    x y i

end Cert.Dense

end
-- ==== Proof.Payload0.lean ====
/-
  The first dense stage's body is `x·w + b` on its blocks.

  The body loads a block of 2000 rows of `x`, the whole 128×128 weight and the bias row, multiplies (the change of
  float format of the two factors is the identity on extended reals, and the product accumulates into zeros), and
  adds the bias row to every row. Entry `(p, q)` of what it stores is therefore the sum over `k` of
  `x (p, k) · w (k, q)` plus `b (0, q)`.
-/
import proofs.«113858_j52561809768706_2_alg».proof.Proof.Gen.KernelIdeal.Skeleton
import proofs.«113858_j52561809768706_2_alg».proof.Proof.MatmulFacts
import Idealize.ShloMosaic.Lib.Pipeline.Value

noncomputable section

open Idealize.ShloMosaic Idealize.ShloMosaic.ValueIdx Idealize.ShloMosaic.Pipeline Cert.KernelIdeal Cert.KernelIdeal.Gen

namespace Cert.Bridge

/-- A single row broadcast to `M` rows, read at an entry: the row's entry in the same column. -/
theorem bias_row_apply {M N : Nat} (b : (⟨2, ![1, N]⟩ : Shape).Idx → EReal)
    (h : (⟨2, ![1, N]⟩ : Shape).Broadcasts ⟨2, ![M, N]⟩) (j : (⟨2, ![M, N]⟩ : Shape).Idx) :
    broadcastTo ⟨2, ![M, N]⟩ b h j = b (ix2 0 (j 1)) := by
  refine broadcastTo_apply b h j (ix2 0 (j 1)) (fun a => ?_)
  match a with
  | ⟨0, _⟩ => show (0 : Nat) = if (1 : Nat) = 1 then 0 else (j 0).val; rw [if_pos rfl]
  | ⟨1, _⟩ =>
    show (j 1).val = if N = 1 then 0 else (j 1).val
    by_cases hN : N = 1
    · rw [if_pos hN]; have := idx2_lt1 j; omega
    · rw [if_neg hN]

/-- The first body's stored value is `proj` of its three loaded blocks. -/
theorem pay0_eq (v0 : Vec Ideal S2000x128 .f32) (v2 : Vec Ideal S128x128 .f32) (v5 : Vec Ideal S1x128 .f32) :
    k0_pay1 (F := Ideal) v0 v2 v5 = Cert.Dense.proj v0 v2 v5 := by
  funext j
  simp only [k0_pay1, shapeCast_self]
  rw [addf_apply, Cert.Dense.mm_dot_S2000x128_S128x128_S2000x128_1_0_0_1_n_n, bias_row_apply]
  rfl

end Cert.Bridge

end
-- ==== Proof.Region0.lean ====
/-
  The first dense stage's output array is `x·w + b` of the arrays the stage is entered with.

  The stage runs 25 grid points. Point `t` reads rows `2000·t … 2000·t + 1999` of `x` (its block of the row-indexed
  operand), the whole weight and the whole bias row, and writes rows `2000·t … 2000·t + 1999` of the output. An
  output entry depends only on its own row of `x`, so what point `t` writes back is exactly block `t` of the
  whole-array function `proj x w b`; the 25 blocks cover all 50000 rows, so the array ends holding `proj x w b`.
-/
import proofs.«113858_j52561809768706_2_alg».proof.Proof.Gen.KernelIdeal.Frame
import proofs.«113858_j52561809768706_2_alg».proof.Proof.Payload0

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

namespace Cert.Bridge

variable (V : (c : Dev nD) → (b : Ref sig .tc) → Buf (Elt Ideal) ((c : Thread nD τ).loc b))

theorem zero_off : (![0, 0] : Fin 2 → Nat) = fun _ => 0 := funext fun a => by fin_cases a <;> rfl

/-- A block of 2000 consecutive rows of `x`, with the whole weight and bias: `proj` of the block at row `p` is
    `proj` of the arrays at row `o + p`. -/
theorem proj_rows (o : Nat) (ho : o + 2000 ≤ 50000) (A0 : Mat 50000 128) (A1 : Mat 128 128) (A2 : Mat 1 128)
    (x0 : Mat 2000 128) (x1 : Mat 128 128) (x2 : Mat 1 128)
    (h0 : ∀ (p : Fin 2000) (k : Fin 128), x0 (ix2 p k) = A0 (ix2 ⟨o + p.val, by omega⟩ k))
    (h1 : x1 = A1) (h2 : x2 = A2) (j : (⟨2, ![2000, 128]⟩ : Shape).Idx) :
    proj x0 x1 x2 j = proj A0 A1 A2 (ix2 ⟨o + (j 0).val, by have := idx2_lt0 j; omega⟩ (j 1)) := by
  subst h1 h2
  unfold proj mm
  exact congrArg₂ (· + ·) (Finset.sum_congr rfl fun k _ => congrArg (· * x1 (ix2 k (j 1))) (h0 (j 0) k)) rfl

/-- The index maps over the grid: the row-indexed windows sit at block row `t`, the whole ones at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `proj` of the arrays as the stage finds them. -/
theorem flushed0_eq (c : Dev nD) (t : Fin cfg0.N) :
    (dat0 V c).flushed 3 t
      = ((cfg0.win 3).blk t).view.read (Elt Ideal) (proj (V c main_arg0) (V c main_arg9) (V c main_v16)) := by
  show (cfg0.win 3).cut (grid0.coords t) ((dat0 V c).after 3 t) = _
  rw [after0_3]
  unfold out0_3
  rw [View.canon_unit_zero zero_off]
  simp only [View.ld_unit_zero (S := S2000x128) zero_off, View.ld_unit_zero (S := S128x128) zero_off,
    View.ld_unit_zero (S := S1x128) zero_off]
  rw [pay0_eq]
  obtain ⟨e0, e1, e2, e3, e4, e5, e6, e7⟩ := idx_facts0 t
  have ht : t.val < 25 := t.isLt
  funext j
  have hj0 : (j 0).val < 2000 := (j 0).isLt
  have hj1 : (j 1).val < 128 := (j 1).isLt
  refine (proj_rows (t.val * 2000) (by omega) (V c main_arg0) (V c main_arg9) (V c main_v16)
    (iblk0 V c 0 t) (iblk0 V c 1 t) (iblk0 V c 2 t) ?_ ?_ ?_ j).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · funext y
    show V c main_arg9 (((cfg0.win 1).blk t).view.emb y) = V c main_arg9 y
    refine congrArg (V c main_arg9) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v16 (((cfg0.win 2).blk t).view.emb y) = V c main_v16 y
    refine congrArg (V c main_v16) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show proj (V c main_arg0) (V c main_arg9) (V c main_v16) _
      = proj (V c main_arg0) (V c main_arg9) (V c main_v16) (((cfg0.win 3).blk t).view.emb j)
    refine congrArg (proj (V c main_arg0) (V c main_arg9) (V c main_v16)) (funext fun a => Fin.ext ?_)
    match a with
    | ⟨0, _⟩ => show t.val * 2000 + (j 0).val = win0_3.index t (0 : Fin 2) * 2000 + 1 * (j 0).val; omega
    | ⟨1, _⟩ => show (j 1).val = win0_3.index t (1 : Fin 2) * 128 + 1 * (j 1).val; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v17).slice (win0_3.rect t)).set ↔ _
  rw [View.set_slice_whole, Rect.mem_set_unit]
  exact Iff.rfl

/-- Every row of the output is in the block of the point `row / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨e0, e1, e2, e3, e4, e5, e6, e7⟩ := idx_facts0 t
  have tv : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the stage: `x·w + b` of the arrays the stage is entered with. -/
theorem region0_array (c : Dev nD) :
    (dat0 (F := Ideal) V c).arrAt 3 cfg0.N = proj (V c main_arg0) (V c main_arg9) (V c main_v16) :=
  (dat0 V c).arrAt_eq_of_cover 3 (proj (V c main_arg0) (V c main_arg9) (V c main_v16))
    (fun t _ => flushed0_eq V c t) cover0

end Cert.Bridge

end
-- ==== Proof.Payload1.lean ====
/-
  The body of the fused pooler and first layer, entry by entry.

  One block of 1000 rows is computed from the block's rows of the three row-indexed operands and from the whole
  weight matrices and bias rows. Entry `(p, q)` of the result is

    max (((tanh (cls·Wp + bp))·Wra + feat·Wrb) + mean·Wl + b, 0)   at (p, q),

  where every product is the sum over the shared axis of the products of row `p` of the left factor and column `q`
  of the right one, a bias row is read at column `q` whatever the row, and a change of number format is the identity
  on the extended reals. The inner product (the pooled rows) sits under the sum of the outer one: the left factor of
  the outer product is first identified, as a function of its index, with the pooled matrix.
-/
import proofs.«113858_j52561809768706_2_alg».proof.Proof.Gen.KernelIdeal.Skeleton
import proofs.«113858_j52561809768706_2_alg».proof.Proof.MatmulFacts
import Idealize.ShloMosaic.Lib.Pipeline.Value

noncomputable section

open Idealize.ShloMosaic Idealize.ShloMosaic.ValueIdx Cert.KernelIdeal Cert.KernelIdeal.Gen Cert.Dense

namespace Cert.Bridge

/-- The hyperbolic tangent of a vector of extended reals, at an index. -/
theorem tanh_apply {s : Shape} {φ : FTy} (a : FVec Ideal s φ) (i : s.Idx) : (tanh a : FVec Ideal s φ) i = Ideal.tanh (a i) := rfl

/-- The bias row of 768 columns repeated down 1000 rows, at an entry: the row's entry in that column. -/
theorem bcast_row768_apply (x : FVec Ideal S1x768 .f32) (h : S1x768.Broadcasts S1000x768) (j : S1000x768.Idx) :
    broadcastTo S1000x768 x h j = x (ix2 0 (j 1)) := by
  refine broadcastTo_apply x h j (ix2 0 (j 1)) (fun a => ?_)
  match a with
  | ⟨0, _⟩ => rfl
  | ⟨1, _⟩ => rfl

/-- The bias row of 128 columns repeated down 1000 rows, at an entry: the row's entry in that column. -/
theorem bcast_row128_apply (x : FVec Ideal S1x128 .f32) (h : S1x128.Broadcasts S1000x128) (j : S1000x128.Idx) :
    broadcastTo S1000x128 x h j = x (ix2 0 (j 1)) := by
  refine broadcastTo_apply x h j (ix2 0 (j 1)) (fun a => ?_)
  match a with
  | ⟨0, _⟩ => rfl
  | ⟨1, _⟩ => rfl

/-- The pooled rows of the block: the left factor of the outer product, as a function of its index. -/
theorem pooled_block (v0 : Vec Ideal S1000x768 .f32) (v3 : Vec Ideal S768x768 .f32) (v6 : Vec Ideal S1x768 .f32)
    (hb : S1x768.Broadcasts S1000x768) (h1 h2 : FTy.bits .bf16 < FTy.bits .f32) :
    (tanh (addf (matmul (F := Ideal) dot_S1000x768_S768x768_S1000x768_1_0_0_1_n_n none
        (truncf .bf16 v0 h1) (truncf .bf16 v3 h2) (constant S1000x768 .f32 0x00000000#32))
      (broadcastTo S1000x768 v6 hb)) : FVec Ideal S1000x768 .f32) = pooled v0 v3 v6 := by
  funext i
  rw [tanh_apply, addf_apply, mm_dot_S1000x768_S768x768_S1000x768_1_0_0_1_n_n, bcast_row768_apply]
  rfl

/-- The block's result is the first layer of the block's rows. -/
theorem pay1_eq (v0 : Vec Ideal S1000x768 .f32) (v3 : Vec Ideal S768x768 .f32) (v6 : Vec Ideal S1x768 .f32)
    (v12 : Vec Ideal S768x128 .f32) (v16 : Vec Ideal S1000x12 .f32) (v18 : Vec Ideal S12x128 .f32)
    (v23 : Vec Ideal S1000x128 .f32) (v26 : Vec Ideal S128x128 .f32) (v30 : Vec Ideal S1x128 .f32) :
    k1_pay1 (F := Ideal) v0 v3 v6 v12 v16 v18 v23 v26 v30 = sage0 v0 v3 v6 v16 v18 v23 v26 v12 v30 := by
  funext j
  simp only [k1_pay1, shapeCast_self]
  rw [maximumf_apply, addf_apply, addf_apply, addf_apply, broadcast_apply, bcast_row128_apply,
    mm_dot_S1000x768_S768x128_S1000x128_1_0_0_1_n_n, mm_dot_S1000x12_S12x128_S1000x128_1_0_0_1_n_n,
    mm_dot_S1000x128_S128x128_S1000x128_1_0_0_1_n_n]
  have hp := pooled_block v0 v3 v6 broadcasts_S1x768_S1000x768 bitsLt_bf16_f32 bitsLt_bf16_f32
  show max (((mm (tanh (addf (matmul (F := Ideal) dot_S1000x768_S768x768_S1000x768_1_0_0_1_n_n none
        (truncf .bf16 v0 bitsLt_bf16_f32) (truncf .bf16 v3 bitsLt_bf16_f32) (constant S1000x768 .f32 0x00000000#32))
      (broadcastTo S1000x768 v6 broadcasts_S1x768_S1000x768)) : FVec Ideal S1000x768 .f32) v12 (j 0) (j 1)
      + mm v16 v18 (j 0) (j 1)) + mm v23 v26 (j 0) (j 1)) + v30 (ix2 0 (j 1))) (Ideal.ofBits .f32 0x00000000#32) = _
  rw [hp, Ideal.ofBits_zero_f32]
  rfl

end Cert.Bridge

end
-- ==== Proof.Region1.lean ====
/-
  The fused pooler and first layer over all 25000 rows.

  The 25 grid points cut the rows into blocks of 1000: point `t` reads rows `1000·t … 1000·t + 999` of the three
  row-indexed operands (the class rows, the features, the neighbour means) and the whole of every weight matrix and
  bias row, and writes rows `1000·t … 1000·t + 999` of the result. Entry `(p, q)` of the first layer reads only row
  `p` of each row-indexed operand, so the block a point writes is the block of the first layer of the whole arrays:
  a block's coordinate on an axis is its index there times the block's extent plus the coordinate inside the block, row
  `p` of block `t` is row `1000·t + p` of the array, and the columns are not cut. Row `r` lies in the block of
  point `r / 1000`, so the 25 blocks cover the array and it ends holding the first layer of the arrays it was
  entered with.
-/
import proofs.«113858_j52561809768706_2_alg».proof.Proof.Payload1
import proofs.«113858_j52561809768706_2_alg».proof.Proof.Gen.KernelIdeal.Frame
import proofs.«113858_j52561809768706_2_alg».proof.Proof.Gen.KernelIdeal.Points
import Idealize.ShloMosaic.Lib.Pipeline.Value

noncomputable section

open Idealize.ShloMosaic Idealize.ShloMosaic.TcCoe Idealize.SL.Sem Idealize.ShloMosaic.ValueIdx
open Idealize.ShloMosaic.Pipeline (Dat)
open Cert.KernelIdeal Cert.KernelIdeal.Gen Cert.Dense

namespace Cert.Bridge

/-- Entry `(p, q)` of the first layer reads only row `p` of its row-indexed operands: when row `j 0` of one triple is
    row `i 0` of another and the columns agree, the two first layers agree at `j` and `i`. -/
theorem sage0_rows {M M' : Nat} (x0 : Mat M 768) (x3 : Mat M 12) (x5 : Mat M 128)
    (cls : Mat M' 768) (feat : Mat M' 12) (mean : Mat M' 128)
    (wp : Mat 768 768) (bp : Mat 1 768) (wrb : Mat 12 128) (wl : Mat 128 128) (wra : Mat 768 128) (b : Mat 1 128)
    (j : (⟨2, ![M, 128]⟩ : Shape).Idx) (i : (⟨2, ![M', 128]⟩ : Shape).Idx) (hq : (i 1).val = (j 1).val)
    (h0 : ∀ k : Fin 768, x0 (ix2 (j 0) k) = cls (ix2 (i 0) k))
    (h3 : ∀ k : Fin 12, x3 (ix2 (j 0) k) = feat (ix2 (i 0) k))
    (h5 : ∀ k : Fin 128, x5 (ix2 (j 0) k) = mean (ix2 (i 0) k)) :
    sage0 x0 wp bp x3 wrb x5 wl wra b j = sage0 cls wp bp feat wrb mean wl wra b i := by
  have hq' : (i 1 : Fin 128) = (j 1 : Fin 128) := Fin.ext hq
  have hp : ∀ k : Fin 768, pooled x0 wp bp (ix2 (j 0) k) = pooled cls wp bp (ix2 (i 0) k) := fun k => by
    show Ideal.tanh (mm x0 wp (j 0) k + bp (ix2 0 k)) = Ideal.tanh (mm cls wp (i 0) k + bp (ix2 0 k))
    unfold mm
    simp only [h0]
  show max (((mm (pooled x0 wp bp) wra (j 0) (j 1) + mm x3 wrb (j 0) (j 1)) + mm x5 wl (j 0) (j 1)) + b (ix2 0 (j 1))) 0
    = max (((mm (pooled cls wp bp) wra (i 0) (i 1 : Fin 128) + mm feat wrb (i 0) (i 1 : Fin 128)) + mm mean wl (i 0) (i 1 : Fin 128))
      + b (ix2 0 (i 1 : Fin 128))) 0
  rw [hq']
  unfold mm
  simp only [hp, h3, h5]

/-- The zero offsets of a whole-buffer access. -/
theorem zero_offsets : (![0, 0] : Fin 2 → Nat) = fun _ => 0 := funext fun a => by fin_cases a <;> rfl

/-- The row-blocked windows at a point: the block index is the point on the rows and `0` on the columns. -/
theorem row_windows1 : ∀ t : Fin cfg1.N,
    (win1_9.index t (0 : Fin 2) = t.val ∧ win1_9.index t (1 : Fin 2) = 0)
    ∧ (win1_0.index t (0 : Fin 2) = t.val ∧ win1_0.index t (1 : Fin 2) = 0)
    ∧ (win1_3.index t (0 : Fin 2) = t.val ∧ win1_3.index t (1 : Fin 2) = 0)
    ∧ (win1_5.index t (0 : Fin 2) = t.val ∧ win1_5.index t (1 : Fin 2) = 0) :=
  (by decide +kernel : ∀ t : Fin grid1.N, _)

/-- The whole windows at a point: the block index is `0` on both axes. -/
theorem whole_windows1 : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_4.index t (0 : Fin 2) = 0 ∧ win1_4.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Every block of rows is some point's. -/
theorem point_of_rows1 : ∀ q : Fin 25, ∃ t : Fin cfg1.N, win1_9.index t (0 : Fin 2) = q.val :=
  (by decide +kernel : ∀ q : Fin 25, ∃ t : Fin grid1.N, win1_9.index t (0 : Fin 2) = q.val)

section
variable (V : (c : Dev nD) → (b : Ref sig .tc) → Buf (Elt Ideal) ((c : Thread nD τ).loc b))

/-- The block of class rows at point `t`: row `p` is row `1000·t + p` of the array. -/
theorem blk1_0_apply (c : Dev nD) (t : Fin cfg1.N) (x : S1000x768.Idx) (k : S25000x768.Idx)
    (hk0 : (k 0).val = t.val * 1000 + (x 0).val) (hk1 : (k 1).val = (x 1).val) :
    (iblk1 V c 0 t : Vec Ideal S1000x768 .f32) x = (V c main_v8 : S25000x768.Idx → Elt Ideal .f32) k := by
  obtain ⟨-, ⟨e0, e1⟩, -, -⟩ := row_windows1 t
  unfold iblk1
  rw [View.read_apply]
  show V c main_v8 _ = V c main_v8 _
  congr 1
  funext a
  apply Fin.ext
  match a with
  | ⟨0, _⟩ => show win1_0.index t (0 : Fin 2) * 1000 + 1 * (x 0).val = (k 0).val; omega
  | ⟨1, _⟩ => show win1_0.index t (1 : Fin 2) * 768 + 1 * (x 1).val = (k 1).val; omega

/-- The block of feature rows at point `t`: row `p` is row `1000·t + p` of the array. -/
theorem blk1_3_apply (c : Dev nD) (t : Fin cfg1.N) (x : S1000x12.Idx) (k : S25000x12.Idx)
    (hk0 : (k 0).val = t.val * 1000 + (x 0).val) (hk1 : (k 1).val = (x 1).val) :
    (iblk1 V c 3 t : Vec Ideal S1000x12 .f32) x = (V c main_arg2 : S25000x12.Idx → Elt Ideal .f32) k := by
  obtain ⟨-, -, ⟨e0, e1⟩, -⟩ := row_windows1 t
  unfold iblk1
  rw [View.read_apply]
  show V c main_arg2 _ = V c main_arg2 _
  congr 1
  funext a
  apply Fin.ext
  match a with
  | ⟨0, _⟩ => show win1_3.index t (0 : Fin 2) * 1000 + 1 * (x 0).val = (k 0).val; omega
  | ⟨1, _⟩ => show win1_3.index t (1 : Fin 2) * 12 + 1 * (x 1).val = (k 1).val; omega

/-- The block of neighbour-mean rows at point `t`: row `p` is row `1000·t + p` of the array. -/
theorem blk1_5_apply (c : Dev nD) (t : Fin cfg1.N) (x : S1000x128.Idx) (k : S25000x128.Idx)
    (hk0 : (k 0).val = t.val * 1000 + (x 0).val) (hk1 : (k 1).val = (x 1).val) :
    (iblk1 V c 5 t : Vec Ideal S1000x128 .f32) x = (V c main_v84 : S25000x128.Idx → Elt Ideal .f32) k := by
  obtain ⟨-, -, -, ⟨e0, e1⟩⟩ := row_windows1 t
  unfold iblk1
  rw [View.read_apply]
  show V c main_v84 _ = V c main_v84 _
  congr 1
  funext a
  apply Fin.ext
  match a with
  | ⟨0, _⟩ => show win1_5.index t (0 : Fin 2) * 1000 + 1 * (x 0).val = (k 0).val; omega
  | ⟨1, _⟩ => show win1_5.index t (1 : Fin 2) * 128 + 1 * (x 1).val = (k 1).val; omega

/-- A whole window's block is its array: the pooler's weights. -/
theorem blk1_1_eq (c : Dev nD) (t : Fin cfg1.N) : (iblk1 V c 1 t : Vec Ideal S768x768 .f32) = V c main_arg7 := by
  obtain ⟨⟨e0, e1⟩, -⟩ := whole_windows1 t
  funext x
  unfold iblk1
  rw [View.read_apply]
  show V c main_arg7 _ = V c main_arg7 x
  congr 1
  funext a
  apply Fin.ext
  match a with
  | ⟨0, _⟩ => show win1_1.index t (0 : Fin 2) * 768 + 1 * (x 0).val = (x 0).val; omega
  | ⟨1, _⟩ => show win1_1.index t (1 : Fin 2) * 768 + 1 * (x 1).val = (x 1).val; omega

/-- The pooler's bias row. -/
theorem blk1_2_eq (c : Dev nD) (t : Fin cfg1.N) : (iblk1 V c 2 t : Vec Ideal S1x768 .f32) = V c main_v85 := by
  obtain ⟨-, ⟨e0, e1⟩, -⟩ := whole_windows1 t
  funext x
  unfold iblk1
  rw [View.read_apply]
  show V c main_v85 _ = V c main_v85 x
  congr 1
  funext a
  apply Fin.ext
  match a with
  | ⟨0, _⟩ => show win1_2.index t (0 : Fin 2) * 1 + 1 * (x 0).val = (x 0).val; omega
  | ⟨1, _⟩ => show win1_2.index t (1 : Fin 2) * 768 + 1 * (x 1).val = (x 1).val; omega

/-- The features' weights. -/
theorem blk1_4_eq (c : Dev nD) (t : Fin cfg1.N) : (iblk1 V c 4 t : Vec Ideal S12x128 .f32) = V c main_v10 := by
  obtain ⟨-, -, ⟨e0, e1⟩, -⟩ := whole_windows1 t
  funext x
  unfold iblk1
  rw [View.read_apply]
  show V c main_v10 _ = V c main_v10 x
  congr 1
  funext a
  apply Fin.ext
  match a with
  | ⟨0, _⟩ => show win1_4.index t (0 : Fin 2) * 12 + 1 * (x 0).val = (x 0).val; omega
  | ⟨1, _⟩ => show win1_4.index t (1 : Fin 2) * 128 + 1 * (x 1).val = (x 1).val; omega

/-- The neighbour means' weights. -/
theorem blk1_6_eq (c : Dev nD) (t : Fin cfg1.N) : (iblk1 V c 6 t : Vec Ideal S128x128 .f32) = V c main_arg13 := by
  obtain ⟨-, -, -, ⟨e0, e1⟩, -⟩ := whole_windows1 t
  funext x
  unfold iblk1
  rw [View.read_apply]
  show V c main_arg13 _ = V c main_arg13 x
  congr 1
  funext a
  apply Fin.ext
  match a with
  | ⟨0, _⟩ => show win1_6.index t (0 : Fin 2) * 128 + 1 * (x 0).val = (x 0).val; omega
  | ⟨1, _⟩ => show win1_6.index t (1 : Fin 2) * 128 + 1 * (x 1).val = (x 1).val; omega

/-- The pooled rows' weights. -/
theorem blk1_7_eq (c : Dev nD) (t : Fin cfg1.N) : (iblk1 V c 7 t : Vec Ideal S768x128 .f32) = V c main_v9 := by
  obtain ⟨-, -, -, -, ⟨e0, e1⟩, -⟩ := whole_windows1 t
  funext x
  unfold iblk1
  rw [View.read_apply]
  show V c main_v9 _ = V c main_v9 x
  congr 1
  funext a
  apply Fin.ext
  match a with
  | ⟨0, _⟩ => show win1_7.index t (0 : Fin 2) * 768 + 1 * (x 0).val = (x 0).val; omega
  | ⟨1, _⟩ => show win1_7.index t (1 : Fin 2) * 128 + 1 * (x 1).val = (x 1).val; omega

/-- The layer's bias row. -/
theorem blk1_8_eq (c : Dev nD) (t : Fin cfg1.N) : (iblk1 V c 8 t : Vec Ideal S1x128 .f32) = V c main_v86 := by
  obtain ⟨-, -, -, -, -, ⟨e0, e1⟩⟩ := whole_windows1 t
  funext x
  unfold iblk1
  rw [View.read_apply]
  show V c main_v86 _ = V c main_v86 x
  congr 1
  funext a
  apply Fin.ext
  match a with
  | ⟨0, _⟩ => show win1_8.index t (0 : Fin 2) * 1 + 1 * (x 0).val = (x 0).val; omega
  | ⟨1, _⟩ => show win1_8.index t (1 : Fin 2) * 128 + 1 * (x 1).val = (x 1).val; omega

/-- What point `t` writes back is block `t` of the first layer of the arrays the region was entered with. -/
theorem flushed1_9_eq (c : Dev nD) (t : Fin cfg1.N) :
    (dat1 (F := Ideal) V c).flushed 9 t = ((cfg1.win 9).blk t).view.read (Elt Ideal)
      (sage0 (V c main_v8) (V c main_arg7) (V c main_v85) (V c main_arg2) (V c main_v10) (V c main_v84)
        (V c main_arg13) (V c main_v9) (V c main_v86)) := by
  show (cfg1.win 9).cut (grid1.coords t) ((dat1 V c).after 9 t) = _
  rw [after1_9]
  unfold out1_9
  rw [View.canon_unit_zero zero_offsets]
  simp only [View.ld_unit_zero (S := S1000x768) zero_offsets, View.ld_unit_zero (S := S768x768) zero_offsets,
    View.ld_unit_zero (S := S1x768) zero_offsets, View.ld_unit_zero (S := S768x128) zero_offsets,
    View.ld_unit_zero (S := S1000x12) zero_offsets, View.ld_unit_zero (S := S12x128) zero_offsets,
    View.ld_unit_zero (S := S1000x128) zero_offsets, View.ld_unit_zero (S := S128x128) zero_offsets,
    View.ld_unit_zero (S := S1x128) zero_offsets]
  rw [pay1_eq, blk1_1_eq, blk1_2_eq, blk1_4_eq, blk1_6_eq, blk1_7_eq, blk1_8_eq]
  obtain ⟨⟨e0, e1⟩, -⟩ := row_windows1 t
  funext j
  rw [View.read_apply]
  show sage0 (iblk1 V c 0 t : Vec Ideal S1000x768 .f32) (V c main_arg7) (V c main_v85) (iblk1 V c 3 t : Vec Ideal S1000x12 .f32)
      (V c main_v10) (iblk1 V c 5 t : Vec Ideal S1000x128 .f32) (V c main_arg13) (V c main_v9) (V c main_v86) j
    = sage0 (V c main_v8) (V c main_arg7) (V c main_v85) (V c main_arg2) (V c main_v10) (V c main_v84)
        (V c main_arg13) (V c main_v9) (V c main_v86) (((cfg1.win 9).blk t).view.emb j)
  have hr : ((((cfg1.win 9).blk t).view.emb j) 0).val = t.val * 1000 + (j 0).val := by
    show win1_9.index t (0 : Fin 2) * 1000 + 1 * (j 0).val = _; omega
  have hc : ((((cfg1.win 9).blk t).view.emb j) 1).val = (j 1).val := by
    show win1_9.index t (1 : Fin 2) * 128 + 1 * (j 1).val = _; omega
  exact sage0_rows _ _ _ _ _ _ _ _ _ _ _ _ j _ hc
    (fun k => blk1_0_apply V c t _ _ hr rfl) (fun k => blk1_3_apply V c t _ _ hr rfl) (fun k => blk1_5_apply V c t _ _ hr rfl)

/-- An index of the result array is in point `t`'s block iff each coordinate is in the block's range on its axis. -/
theorem mem_blk1_9 (t : Fin cfg1.N) (i : S25000x128.Idx) :
    i ∈ ((cfg1.win 9).blk t).view.set ↔ ∀ a : Fin 2, win1_9.index t a * S1000x128.size a ≤ (i a).val
      ∧ (i a).val < win1_9.index t a * S1000x128.size a + S1000x128.size a := by
  show i ∈ ((View.whole main_v87).slice (win1_9.rect t)).set ↔ _
  rw [View.set_slice_whole, Rect.mem_set_unit]
  exact Iff.rfl

/-- Every entry of the result array is in the block of the point that holds its row. -/
theorem covered1_9 (i : S25000x128.Idx) :
    ∃ t : Fin cfg1.N, (cfg1.win 9).flush t = true ∧ i ∈ ((cfg1.win 9).blk t).view.set := by
  have hi0 : (i 0).val < 25000 := (i 0).isLt
  have hi1 : (i 1).val < 128 := (i 1).isLt
  obtain ⟨t, ht⟩ := point_of_rows1 ⟨(i 0).val / 1000, by omega⟩
  have q0 : win1_9.index t (0 : Fin 2) = (i 0).val / 1000 := ht
  obtain ⟨⟨-, q1⟩, -⟩ := row_windows1 t
  refine ⟨t, flush1_9 t, ?_⟩
  rw [mem_blk1_9]
  intro a
  match a with
  | ⟨0, _⟩ => show win1_9.index t (0 : Fin 2) * 1000 ≤ (i 0).val ∧ (i 0).val < win1_9.index t (0 : Fin 2) * 1000 + 1000; omega
  | ⟨1, _⟩ => show win1_9.index t (1 : Fin 2) * 128 ≤ (i 1).val ∧ (i 1).val < win1_9.index t (1 : Fin 2) * 128 + 128; omega

/-- The result array after the region is the first layer of the arrays the region was entered with. -/
theorem region1_array (c : Dev nD) :
    (dat1 (F := Ideal) V c).arrAt 9 cfg1.N = sage0 (V c main_v8) (V c main_arg7) (V c main_v85) (V c main_arg2)
      (V c main_v10) (V c main_v84) (V c main_arg13) (V c main_v9) (V c main_v86) :=
  (dat1 (F := Ideal) V c).arrAt_eq_of_cover 9 _ (fun t _ => flushed1_9_eq V c t) covered1_9

end

end Cert.Bridge

end
-- ==== Proof.Payload2.lean ====
/-
  The body of the third region at an entry.

  The body reads a block of 1000 rows of the neighbour means and of the node features, the two 128×128 weights, the
  bias row, the 128×64 head weight and the head's bias row. Entry `(p, q)` of what it stores is

      Σ_k  max ((Σ_a mean (p, a) · Wl (a, k) + Σ_a feat (p, a) · Wr (a, k)) + b (0, k), 0) · L (k, q)  +  lb (0, q):

  the two inner products are added, the bias row is repeated down the rows, the result is clamped below at zero, and
  the clamped matrix is multiplied by the head weight and the head's bias row added. Changes of float format and
  reshapes to the same shape do nothing to an extended real, so the entry depends only on row `p` of the two
  row-indexed operands.
-/
import proofs.«113858_j52561809768706_2_alg».proof.Proof.Gen.KernelIdeal.Skeleton
import proofs.«113858_j52561809768706_2_alg».proof.Proof.MatmulFacts
import Idealize.ShloMosaic.Lib.Pipeline.Value

noncomputable section

open Idealize.ShloMosaic Idealize.ShloMosaic.ValueIdx Cert.KernelIdeal Cert.KernelIdeal.Gen Cert.Dense
open scoped BigOperators

namespace Cert.Bridge

/-- A single row repeated down `m` rows, read at an entry, is the row's entry in that column. -/
theorem row_broadcast_apply {m n : Nat} {α : Type} (x : (⟨2, ![1, n]⟩ : Shape).Idx → α)
    (h : (⟨2, ![1, n]⟩ : Shape).Broadcasts ⟨2, ![m, n]⟩) (hn : n ≠ 1) (j : (⟨2, ![m, n]⟩ : Shape).Idx) :
    broadcastTo ⟨2, ![m, n]⟩ x h j = x (ix2 0 (j 1)) := by
  refine broadcastTo_apply x h j (ix2 0 (j 1)) fun a => ?_
  match a with
  | ⟨0, _⟩ => exact (if_pos rfl).symm
  | ⟨1, _⟩ => exact (if_neg hn).symm

/-- The clamped sum of the two inner products and the bias row, as the body computes it, at an entry. -/
theorem hidden_apply (v0 : Vec Ideal S1000x128 .f32) (v3 : Vec Ideal S128x128 .f32) (v5 : Vec Ideal S1000x128 .f32)
    (v8 : Vec Ideal S128x128 .f32) (v13 : Vec Ideal S1x128 .f32) (i : S1000x128.Idx) :
    maximumf
        (addf
          (addf
            (matmul (F := Ideal) dot_S1000x128_S128x128_S1000x128_1_0_0_1_n_n none
              (truncf .bf16 (shapeCast S1000x128 v0 shapeCasts_S1000x128_S1000x128) bitsLt_bf16_f32)
              (truncf .bf16 v3 bitsLt_bf16_f32) (constant S1000x128 .f32 0x00000000#32))
            (matmul (F := Ideal) dot_S1000x128_S128x128_S1000x128_1_0_0_1_n_n none
              (truncf .bf16 (shapeCast S1000x128 v5 shapeCasts_S1000x128_S1000x128) bitsLt_bf16_f32)
              (truncf .bf16 v8 bitsLt_bf16_f32) (constant S1000x128 .f32 0x00000000#32)))
          (broadcastTo S1000x128 (shapeCast S1x128 v13 shapeCasts_S1x128_S1x128) broadcasts_S1x128_S1000x128))
        (broadcast S1000x128 (Scalar.ofBits (F := Ideal) .f32 0x00000000#32)) i
      = hidden1 v0 v3 v5 v8 v13 i := by
  rw [maximumf_apply, addf_apply, addf_apply, mm_dot_S1000x128_S128x128_S1000x128_1_0_0_1_n_n,
    mm_dot_S1000x128_S128x128_S1000x128_1_0_0_1_n_n, broadcast_apply, shapeCast_self, shapeCast_self, shapeCast_self,
    row_broadcast_apply v13 broadcasts_S1x128_S1000x128 (by decide) i]
  show max _ (Ideal.ofBits .f32 0x00000000#32) = _
  rw [Ideal.ofBits_zero_f32]
  rfl

/-- The body's payload is the second layer followed by the linear head, on the blocks it read. -/
theorem pay2_eq (v0 : Vec Ideal S1000x128 .f32) (v3 : Vec Ideal S128x128 .f32) (v5 : Vec Ideal S1000x128 .f32)
    (v8 : Vec Ideal S128x128 .f32) (v13 : Vec Ideal S1x128 .f32) (v20 : Vec Ideal S128x64 .f32)
    (v23 : Vec Ideal S1x64 .f32) :
    Cert.KernelIdeal.Gen.k2_pay1 (F := Ideal) v0 v3 v5 v8 v13 v20 v23 = Cert.Dense.sage1lin v0 v3 v5 v8 v13 v20 v23 := by
  funext j
  unfold Cert.KernelIdeal.Gen.k2_pay1
  rw [addf_apply, mm_dot_S1000x128_S128x64_S1000x64_1_0_0_1_n_n, shapeCast_self v23,
    row_broadcast_apply v23 broadcasts_S1x64_S1000x64 (by decide) j]
  unfold sage1lin
  refine congrArg₂ (· + ·) ?_ rfl
  unfold mm
  refine Finset.sum_congr rfl fun k _ => ?_
  refine congrArg₂ (· * ·) ?_ rfl
  rw [truncf_apply]
  exact hidden_apply v0 v3 v5 v8 v13 (ix2 (j 0) k)

end Cert.Bridge

end
-- ==== Proof.Region2.lean ====
/-
  The third region's output array, as one function of the arrays the region finds.

  The grid has 25 points. At point `t` the two row-indexed operands (the neighbour means and the node features,
  25000×128 each) and the output (25000×64) are cut into blocks of 1000 rows: the block at `t` is rows
  `1000 t … 1000 t + 999`, every column, so entry `(r, q)` of a block is entry `(1000 t + r, q)` of the array. The five
  other operands (two 128×128 weights, the bias row, the 128×64 head weight, the head's bias row) are whole at every
  point. Entry `(p, q)` of the second layer with its head reads only row `p` of the two row-indexed operands, so what
  point `t` writes back is block `t` of that one function of the whole arrays. Row `r` of the output lies in the block
  of point `r / 1000`, and the 25 blocks cover all 25000 rows: the array ends holding the function everywhere.
-/
import proofs.«113858_j52561809768706_2_alg».proof.Proof.Payload2
import proofs.«113858_j52561809768706_2_alg».proof.Proof.Gen.KernelIdeal.Frame
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen Cert.Dense
open scoped BigOperators

namespace Cert.Bridge

/-- An entry of the second layer with its head depends only on that row of the two row-indexed operands. -/
theorem sage1lin_row {M M' A H O : Nat} (mean : Mat M A) (mean' : Mat M' A) (wl wl' : Mat A H) (p : Mat M A)
    (p' : Mat M' A) (wr wr' : Mat A H) (b b' : Mat 1 H) (lw lw' : Mat H O) (lb lb' : Mat 1 O)
    (i : (⟨2, ![M, O]⟩ : Shape).Idx) (i' : (⟨2, ![M', O]⟩ : Shape).Idx) (hq : i 1 = i' 1)
    (hmean : ∀ a, mean (ix2 (i 0) a) = mean' (ix2 (i' 0) a)) (hp : ∀ a, p (ix2 (i 0) a) = p' (ix2 (i' 0) a))
    (hwl : wl = wl') (hwr : wr = wr') (hb : b = b') (hlw : lw = lw') (hlb : lb = lb') :
    sage1lin mean wl p wr b lw lb i = sage1lin mean' wl' p' wr' b' lw' lb' i' := by
  subst hwl hwr hb hlw hlb
  show (∑ k, hidden1 mean wl p wr b (ix2 (i 0) k) * lw (ix2 k (i 1))) + lb (ix2 0 (i 1))
    = (∑ k, hidden1 mean' wl p' wr b (ix2 (i' 0) k) * lw (ix2 k (i' 1))) + lb (ix2 0 (i' 1))
  rw [hq]
  refine congrArg₂ (· + ·) (Finset.sum_congr rfl fun k _ => congrArg₂ (· * ·) ?_ rfl) rfl
  show max ((mm mean wl (i 0) k + mm p wr (i 0) k) + b (ix2 0 k)) 0
    = max ((mm mean' wl (i' 0) k + mm p' wr (i' 0) k) + b (ix2 0 k)) 0
  have e1 : mm mean wl (i 0) k = mm mean' wl (i' 0) k := by
    unfold mm; exact Finset.sum_congr rfl fun a _ => by rw [hmean]
  have e2 : mm p wr (i 0) k = mm p' wr (i' 0) k := by
    unfold mm; exact Finset.sum_congr rfl fun a _ => by rw [hp]
  rw [e1, e2]

theorem zero_offsets : (![0, 0] : Fin 2 → Nat) = fun _ => 0 := funext fun a => by fin_cases a <;> rfl

/-- The index maps, decided over the 25 points: the three row-blocked windows sit at block `t` of the rows and
    block 0 of the columns, the five whole windows at block 0 of both. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

section
variable (V : (c : Dev nD) → (b : Ref sig .tc) → Buf (Elt Ideal) ((c : Thread nD τ).loc b))

/-- Window 0 at point `t` is rows `1000 t … 1000 t + 999` of its array, every column. -/
theorem row_block0 (c : Dev nD) (t : Fin cfg2.N) (y : S1000x128.Idx) (k : S25000x128.Idx)
    (hk0 : (k 0).val = t.val * 1000 + (y 0).val) (hk1 : (k 1).val = (y 1).val) :
    (iblk2 V c 0 t : Vec Ideal S1000x128 .f32) y = (V c main_v108 : S25000x128.Idx → EReal) k := by
  obtain ⟨e0, e1, -, -, -, -, -, -, -, -, -, -, -, -, -, -⟩ := block_index2 t
  unfold iblk2
  rw [View.read_apply]
  show V c main_v108 (((cfg2.win 0).blk t).view.emb y) = V c main_v108 k
  refine congrArg _ (funext fun a => Fin.ext ?_)
  match a with
  | ⟨0, _⟩ => show win2_0.index t (0 : Fin 2) * 1000 + 1 * (y 0).val = (k 0).val; omega
  | ⟨1, _⟩ => show win2_0.index t (1 : Fin 2) * 128 + 1 * (y 1).val = (k 1).val; omega

/-- Window 2 at point `t` is rows `1000 t … 1000 t + 999` of its array, every column. -/
theorem row_block2 (c : Dev nD) (t : Fin cfg2.N) (y : S1000x128.Idx) (k : S25000x128.Idx)
    (hk0 : (k 0).val = t.val * 1000 + (y 0).val) (hk1 : (k 1).val = (y 1).val) :
    (iblk2 V c 2 t : Vec Ideal S1000x128 .f32) y = (V c main_v87 : S25000x128.Idx → EReal) k := by
  obtain ⟨-, -, -, -, e0, e1, -, -, -, -, -, -, -, -, -, -⟩ := block_index2 t
  unfold iblk2
  rw [View.read_apply]
  show V c main_v87 (((cfg2.win 2).blk t).view.emb y) = V c main_v87 k
  refine congrArg _ (funext fun a => Fin.ext ?_)
  match a with
  | ⟨0, _⟩ => show win2_2.index t (0 : Fin 2) * 1000 + 1 * (y 0).val = (k 0).val; omega
  | ⟨1, _⟩ => show win2_2.index t (1 : Fin 2) * 128 + 1 * (y 1).val = (k 1).val; omega

/-- Window 1 is the whole array at every point: its one block starts at row 0 and column 0. -/
theorem whole_block1 (c : Dev nD) (t : Fin cfg2.N) :
    (iblk2 V c 1 t : Vec Ideal S128x128 .f32) = (V c main_arg16 : S128x128.Idx → EReal) := by
  obtain ⟨-, -, e0, e1, -, -, -, -, -, -, -, -, -, -, -, -⟩ := block_index2 t
  funext y
  unfold iblk2
  rw [View.read_apply]
  show V c main_arg16 (((cfg2.win 1).blk t).view.emb y) = V c main_arg16 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 3 is the whole array at every point: its one block starts at row 0 and column 0. -/
theorem whole_block3 (c : Dev nD) (t : Fin cfg2.N) :
    (iblk2 V c 3 t : Vec Ideal S128x128 .f32) = (V c main_arg17 : S128x128.Idx → EReal) := by
  obtain ⟨-, -, -, -, -, -, e0, e1, -, -, -, -, -, -, -, -⟩ := block_index2 t
  funext y
  unfold iblk2
  rw [View.read_apply]
  show V c main_arg17 (((cfg2.win 3).blk t).view.emb y) = V c main_arg17 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 is the whole array at every point: its one block starts at row 0 and column 0. -/
theorem whole_block4 (c : Dev nD) (t : Fin cfg2.N) :
    (iblk2 V c 4 t : Vec Ideal S1x128 .f32) = (V c main_v109 : S1x128.Idx → EReal) := by
  obtain ⟨-, -, -, -, -, -, -, -, e0, e1, -, -, -, -, -, -⟩ := block_index2 t
  funext y
  unfold iblk2
  rw [View.read_apply]
  show V c main_v109 (((cfg2.win 4).blk t).view.emb y) = V c main_v109 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 is the whole array at every point: its one block starts at row 0 and column 0. -/
theorem whole_block5 (c : Dev nD) (t : Fin cfg2.N) :
    (iblk2 V c 5 t : Vec Ideal S128x64 .f32) = (V c main_arg19 : S128x64.Idx → EReal) := by
  obtain ⟨-, -, -, -, -, -, -, -, -, -, e0, e1, -, -, -, -⟩ := block_index2 t
  funext y
  unfold iblk2
  rw [View.read_apply]
  show V c main_arg19 (((cfg2.win 5).blk t).view.emb y) = V c main_arg19 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- Window 6 is the whole array at every point: its one block starts at row 0 and column 0. -/
theorem whole_block6 (c : Dev nD) (t : Fin cfg2.N) :
    (iblk2 V c 6 t : Vec Ideal S1x64 .f32) = (V c main_v110 : S1x64.Idx → EReal) := by
  obtain ⟨-, -, -, -, -, -, -, -, -, -, -, -, e0, e1, -, -⟩ := block_index2 t
  funext y
  unfold iblk2
  rw [View.read_apply]
  show V c main_v110 (((cfg2.win 6).blk t).view.emb y) = V c main_v110 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- What point `t` writes back is block `t` of the second layer with its head of the arrays as the region finds
    them. -/
theorem flushed2_eq (c : Dev nD) (t : Fin cfg2.N) :
    (dat2 (F := Ideal) V c).flushed 7 t
      = ((cfg2.win 7).blk t).view.read (Elt Ideal) (sage1lin (M := 25000) (A := 128) (H := 128) (O := 64) (V c main_v108) (V c main_arg16) (V c main_v87) (V c main_arg17) (V c main_v109) (V c main_arg19) (V c main_v110)) := by
  show (cfg2.win 7).cut (grid2.coords t) ((dat2 V c).after 7 t) = _
  rw [after2_7]
  unfold out2_7
  rw [View.canon_unit_zero zero_offsets]
  simp only [View.ld_unit_zero (S := S1000x128) zero_offsets, View.ld_unit_zero (S := S128x128) zero_offsets,
    View.ld_unit_zero (S := S1x128) zero_offsets, View.ld_unit_zero (S := S128x64) zero_offsets,
    View.ld_unit_zero (S := S1x64) zero_offsets]
  rw [pay2_eq]
  obtain ⟨-, -, -, -, -, -, -, -, -, -, -, -, -, -, e0, e1⟩ := block_index2 t
  funext j
  show sage1lin (M := 1000) (A := 128) (H := 128) (O := 64) (iblk2 V c 0 t) (iblk2 V c 1 t) (iblk2 V c 2 t)
      (iblk2 V c 3 t) (iblk2 V c 4 t) (iblk2 V c 5 t) (iblk2 V c 6 t) j
    = sage1lin (M := 25000) (A := 128) (H := 128) (O := 64) (V c main_v108) (V c main_arg16) (V c main_v87) (V c main_arg17) (V c main_v109) (V c main_arg19) (V c main_v110) (((cfg2.win 7).blk t).view.emb j)
  have h0 : ((((cfg2.win 7).blk t).view.emb j) 0).val = t.val * 1000 + (j 0).val := by
    show win2_7.index t (0 : Fin 2) * 1000 + 1 * (j 0).val = _; omega
  have h1 : ((((cfg2.win 7).blk t).view.emb j) 1).val = (j 1).val := by
    show win2_7.index t (1 : Fin 2) * 64 + 1 * (j 1).val = _; omega
  refine sage1lin_row (M := 1000) (M' := 25000) (A := 128) (H := 128) (O := 64) _ _ _ _ _ _ _ _ _ _ _ _ _ _ j _
    (Fin.ext h1.symm) (fun a => row_block0 V c t _ _ h0 rfl) (fun a => row_block2 V c t _ _ h0 rfl)
    (whole_block1 V c t) (whole_block3 V c t) (whole_block4 V c t) (whole_block5 V c t) (whole_block6 V c t)

/-- An index of the output array is in point `t`'s block iff each coordinate is in the block's range on its axis. -/
theorem mem_block2 (t : Fin cfg2.N) (i : S25000x64.Idx) :
    i ∈ ((cfg2.win 7).blk t).view.set ↔ ∀ a : Fin 2, win2_7.index t a * S1000x64.size a ≤ (i a).val
      ∧ (i a).val < win2_7.index t a * S1000x64.size a + S1000x64.size a := by
  show i ∈ ((View.whole main_v111).slice (win2_7.rect t)).set ↔ _
  rw [View.set_slice_whole, Rect.mem_set_unit]
  exact Iff.rfl

/-- Every entry of the output array is in the block of the point its row names: row `r` in that of `r / 1000`. -/
theorem covered2 (i : S25000x64.Idx) :
    ∃ t : Fin cfg2.N, (cfg2.win 7).flush t = true ∧ i ∈ ((cfg2.win 7).blk t).view.set := by
  have hi0 : (i 0).val < 25000 := (i 0).isLt
  have hi1 : (i 1).val < 64 := (i 1).isLt
  have hlt : (i 0).val / 1000 < cfg2.N := by rw [show cfg2.N = 25 from N_2]; omega
  obtain ⟨-, -, -, -, -, -, -, -, -, -, -, -, -, -, e0, e1⟩ := block_index2 ⟨(i 0).val / 1000, hlt⟩
  have e0' : win2_7.index ⟨(i 0).val / 1000, hlt⟩ (0 : Fin 2) = (i 0).val / 1000 := e0
  refine ⟨⟨(i 0).val / 1000, hlt⟩, flush2_7 _, ?_⟩
  rw [mem_block2]
  intro a
  match a with
  | ⟨0, _⟩ =>
    show win2_7.index ⟨(i 0).val / 1000, hlt⟩ (0 : Fin 2) * 1000 ≤ (i 0).val
      ∧ (i 0).val < win2_7.index ⟨(i 0).val / 1000, hlt⟩ (0 : Fin 2) * 1000 + 1000
    omega
  | ⟨1, _⟩ =>
    show win2_7.index ⟨(i 0).val / 1000, hlt⟩ (1 : Fin 2) * 64 ≤ (i 1).val
      ∧ (i 1).val < win2_7.index ⟨(i 0).val / 1000, hlt⟩ (1 : Fin 2) * 64 + 64
    omega

/-- The output array after the region: the second layer with its head of the arrays as the region finds them. -/
theorem region2_array (c : Dev nD) :
    (dat2 (F := Ideal) V c).arrAt 7 cfg2.N
      = sage1lin (M := 25000) (A := 128) (H := 128) (O := 64) (V c main_v108) (V c main_arg16) (V c main_v87) (V c main_arg17) (V c main_v109) (V c main_arg19) (V c main_v110) :=
  (dat2 (F := Ideal) V c).arrAt_eq_of_cover 7 _ (fun t _ => flushed2_eq V c t) covered2

end

end Cert.Bridge

end
-- ==== Proof.RefProj.lean ====
/-
  The reference's first projection is the matrix product, which is the projection with a zero bias row.

  The reference multiplies the 50000×128 input by the 128×128 weight and adds nothing. The host product at entry
  `(p, q)` is the sum over the shared axis of `x (p, k) · w (k, q)`, and adding a bias that is zero at every entry
  leaves that sum unchanged.
-/
import proofs.«113858_j52561809768706_2_alg».proof.Proof.Gen.ReferenceIdeal.Read
import proofs.«113858_j52561809768706_2_alg».proof.Proof.LibMatmulAt

noncomputable section

open Idealize.ShloMosaic Idealize.ShloMosaic.ValueIdx Cert.ReferenceIdeal Cert.ReferenceIdeal.Read Cert.Dense
open scoped BigOperators

namespace Cert.Bridge

/-- The reference's product of the input and the first weight is the projection whose bias row is zero. -/
theorem ref_proj (x0 : (⟨S50000x128, .f32⟩ : BufTy).Contents (Elt Ideal)) (x9 : (⟨S128x128, .f32⟩ : BufTy).Contents (Elt Ideal))
    (b : Mat 1 128) (hb : ∀ y, b y = 0) :
    val_main_v19 (F := Ideal) x0 x9 = proj x0 x9 b := by
  funext i
  have e : val_main_v19 (F := Ideal) x0 x9 i = mm x0 x9 (i 0) (i 1) := by
    unfold val_main_v19
    exact dotGeneral_eq_mm _ rfl rfl lhs_main_v19_0 lhs_main_v19_1 rhs_main_v19_0 rhs_main_v19_1 _ _ i
  rw [e]
  unfold proj
  rw [hb, add_zero]

end Cert.Bridge

end
-- ==== Proof.RefSage0.lean ====
/-
  The reference's first layer, entry by entry.

  The reference computes `max ((mean·Wl + [pooled | feat]·W) + b, 0)`: the pooled rows `tanh (cls·Wp + bp)` and the
  12 feature columns are joined side by side into rows of 780 entries, and multiplied by one 780×128 matrix `W`. A sum
  over the 780 joined columns is the sum over the first 768 plus the sum over the last 12: the first reads the pooled
  rows against rows `0 … 767` of `W`, the second the features against rows `768 … 779`. With those two row ranges of
  `W` named as two matrices, and the bias vectors as single rows, the entry is that of

    max (((pooled·Wra + feat·Wrb) + mean·Wl) + b, 0);

  the two outer summands change places, by commutativity of the sum of extended reals. Nothing is assumed finite.
-/
import proofs.«113858_j52561809768706_2_alg».proof.Proof.Gen.ReferenceIdeal.Read
import proofs.«113858_j52561809768706_2_alg».proof.Proof.LibMatmulAt

noncomputable section

open Idealize.ShloMosaic Idealize.ShloMosaic.ValueIdx
open Cert.ReferenceIdeal Cert.ReferenceIdeal.Read Cert.Dense
open scoped BigOperators

namespace Cert.Bridge

/-- The pooler's bias vector, made a row and repeated down the rows, at an entry: the vector at the entry's column. -/
theorem ref_bias768 (x8 : (⟨S768, .f32⟩ : BufTy).Contents (Elt Ideal)) (i : S25000x768.Idx) :
    val_main_v11 (F := Ideal) x8 i = x8 (ix1 (i 1)) := by
  rw [val_main_v11_apply, val_main_v10_apply]
  exact congrArg x8 (funext fun a => match a with | ⟨0, _⟩ => rfl)

/-- The layer's bias vector, made a row and repeated down the rows, at an entry: the vector at the entry's column. -/
theorem ref_bias128 (x15 : (⟨S128, .f32⟩ : BufTy).Contents (Elt Ideal)) (i : S25000x128.Idx) :
    val_main_v87 (F := Ideal) x15 i = x15 (ix1 (i 1)) := by
  rw [val_main_v87_apply, val_main_v86_apply]
  exact congrArg x15 (funext fun a => match a with | ⟨0, _⟩ => rfl)

/-- The constant the layer is clamped against is `0` at every entry. -/
theorem ref_zero (i : S25000x128.Idx) : val_main_call1_v0 (F := Ideal) i = 0 := by
  rw [val_main_call1_v0_apply, val_main_call1_cst_apply]
  exact Ideal.ofBits_zero_f32

/-- The pooled rows, as a function of the index: `tanh (cls·Wp + bp)`. -/
theorem ref_pooled (x1 : (⟨S25000x350, .i32⟩ : BufTy).Contents (Elt Ideal)) (x6 : (⟨S31090x768, .f32⟩ : BufTy).Contents (Elt Ideal))
    (x7 : (⟨S768x768, .f32⟩ : BufTy).Contents (Elt Ideal)) (x8 : (⟨S768, .f32⟩ : BufTy).Contents (Elt Ideal))
    (bp : Mat 1 768) (hbp : ∀ q : Fin 768, bp (ix2 0 q) = x8 (ix1 q)) :
    val_main_v13 (F := Ideal) x1 x6 x7 x8 = pooled (val_main_v8 (F := Ideal) x1 x6) x7 bp := by
  funext i
  have h9 : val_main_v9 (F := Ideal) x1 x6 x7 i = mm (val_main_v8 (F := Ideal) x1 x6) x7 (i 0) (i 1) := by
    unfold val_main_v9
    exact dotGeneral_eq_mm _ rfl rfl lhs_main_v9_0 lhs_main_v9_1 rhs_main_v9_0 rhs_main_v9_1 _ _ i
  show Ideal.tanh (val_main_v9 (F := Ideal) x1 x6 x7 i + val_main_v11 (F := Ideal) x8 i)
    = Ideal.tanh (mm (val_main_v8 (F := Ideal) x1 x6) x7 (i 0) (i 1) + bp (ix2 0 (i 1)))
  rw [h9, ref_bias768, hbp (i 1)]

/-- The joined rows at one of the first 768 columns: the pooled rows there. -/
theorem ref_joined_left (x1 : (⟨S25000x350, .i32⟩ : BufTy).Contents (Elt Ideal)) (x2 : (⟨S25000x12, .f32⟩ : BufTy).Contents (Elt Ideal))
    (x6 : (⟨S31090x768, .f32⟩ : BufTy).Contents (Elt Ideal)) (x7 : (⟨S768x768, .f32⟩ : BufTy).Contents (Elt Ideal))
    (x8 : (⟨S768, .f32⟩ : BufTy).Contents (Elt Ideal)) (p : Fin 25000) (k : Fin 768) :
    val_main_v14 (F := Ideal) x1 x2 x6 x7 x8 (ix2 p (Fin.castAdd 12 k)) = val_main_v13 (F := Ideal) x1 x6 x7 x8 (ix2 p k) := by
  unfold val_main_v14
  exact concatenate_pair_apply_left (t := S25000x780) (s₁ := S25000x768) (s₂ := S25000x12) (1 : Fin 2)
    (val_main_v13 (F := Ideal) x1 x6 x7 x8) x2 _ (ix2 p (Fin.castAdd 12 k)) rfl (ix2 p k) (fun b => match b with
    | ⟨0, _⟩ => rfl
    | ⟨1, _⟩ => rfl)

/-- The joined rows at one of the last 12 columns, `768 + k`: the features at column `k`. -/
theorem ref_joined_right (x1 : (⟨S25000x350, .i32⟩ : BufTy).Contents (Elt Ideal)) (x2 : (⟨S25000x12, .f32⟩ : BufTy).Contents (Elt Ideal))
    (x6 : (⟨S31090x768, .f32⟩ : BufTy).Contents (Elt Ideal)) (x7 : (⟨S768x768, .f32⟩ : BufTy).Contents (Elt Ideal))
    (x8 : (⟨S768, .f32⟩ : BufTy).Contents (Elt Ideal)) (p : Fin 25000) (k : Fin 12) :
    val_main_v14 (F := Ideal) x1 x2 x6 x7 x8 (ix2 p (Fin.natAdd 768 k)) = x2 (ix2 p k) := by
  unfold val_main_v14
  exact concatenate_pair_apply_right (t := S25000x780) (s₁ := S25000x768) (s₂ := S25000x12) (1 : Fin 2)
    (val_main_v13 (F := Ideal) x1 x6 x7 x8) x2 _ (ix2 p (Fin.natAdd 768 k)) rfl rfl (ix2 p k)
    (fun b hb => match b, hb with
      | ⟨0, _⟩, _ => rfl
      | ⟨1, _⟩, hb => absurd rfl hb)
    (by show k.val + 768 = 768 + k.val; omega)

/-- The joined rows times the 780-row matrix, at an entry: the sum over the 780 columns split at 768. -/
theorem ref_joined_product (x1 : (⟨S25000x350, .i32⟩ : BufTy).Contents (Elt Ideal)) (x2 : (⟨S25000x12, .f32⟩ : BufTy).Contents (Elt Ideal))
    (x6 : (⟨S31090x768, .f32⟩ : BufTy).Contents (Elt Ideal)) (x7 : (⟨S768x768, .f32⟩ : BufTy).Contents (Elt Ideal))
    (x8 : (⟨S768, .f32⟩ : BufTy).Contents (Elt Ideal)) (x14 : (⟨S780x128, .f32⟩ : BufTy).Contents (Elt Ideal))
    (bp : Mat 1 768) (wra : Mat 768 128) (wrb : Mat 12 128)
    (hbp : ∀ q : Fin 768, bp (ix2 0 q) = x8 (ix1 q))
    (hwa : ∀ (k : Fin 768) (q : Fin 128), wra (ix2 k q) = x14 (ix2 (⟨k.val, by omega⟩ : Fin 780) q))
    (hwb : ∀ (k : Fin 12) (q : Fin 128), wrb (ix2 k q) = x14 (ix2 (⟨768 + k.val, by omega⟩ : Fin 780) q))
    (i : S25000x128.Idx) :
    val_main_v84 (F := Ideal) x1 x2 x6 x7 x8 x14 i
      = mm (pooled (val_main_v8 (F := Ideal) x1 x6) x7 bp) wra (i 0) (i 1) + mm x2 wrb (i 0) (i 1) := by
  have h : val_main_v84 (F := Ideal) x1 x2 x6 x7 x8 x14 i = mm (val_main_v14 (F := Ideal) x1 x2 x6 x7 x8) x14 (i 0) (i 1) := by
    unfold val_main_v84
    exact dotGeneral_eq_mm _ rfl rfl lhs_main_v84_0 lhs_main_v84_1 rhs_main_v84_0 rhs_main_v84_1 _ _ i
  rw [h]
  unfold mm
  refine (Fin.sum_univ_add (a := 768) (b := 12)
    (fun k : Fin (768 + 12) => val_main_v14 (F := Ideal) x1 x2 x6 x7 x8 (ix2 (i 0) k) * x14 (ix2 k (i 1)))).trans ?_
  refine congrArg₂ (· + ·) (Finset.sum_congr rfl fun k _ => ?_) (Finset.sum_congr rfl fun k _ => ?_)
  · exact congrArg₂ (· * ·)
      ((ref_joined_left x1 x2 x6 x7 x8 (i 0) k).trans (congrFun (ref_pooled x1 x6 x7 x8 bp hbp) (ix2 (i 0) k)))
      (hwa k (i 1)).symm
  · exact congrArg₂ (· * ·) (ref_joined_right x1 x2 x6 x7 x8 (i 0) k) (hwb k (i 1)).symm

/-- The first layer at an entry, spelled out. -/
theorem sage0_apply {M D E H A : Nat} (cls : Mat M D) (wp : Mat D D) (bp : Mat 1 D) (feat : Mat M E) (wrb : Mat E H)
    (mean : Mat M A) (wl : Mat A H) (wra : Mat D H) (b : Mat 1 H) (i : (⟨2, ![M, H]⟩ : Shape).Idx) :
    sage0 cls wp bp feat wrb mean wl wra b i
      = max (((mm (pooled cls wp bp) wra (i 0) (i 1) + mm feat wrb (i 0) (i 1)) + mm mean wl (i 0) (i 1)) + b (ix2 0 (i 1))) 0 :=
  rfl

/-- The reference's first layer is the first layer of the gathered class rows, the features and the neighbour means. -/
theorem ref_sage0 (x0 : (⟨S50000x128, .f32⟩ : BufTy).Contents (Elt Ideal)) (x1 : (⟨S25000x350, .i32⟩ : BufTy).Contents (Elt Ideal))
    (x2 : (⟨S25000x12, .f32⟩ : BufTy).Contents (Elt Ideal)) (x4 x5 : (⟨S800000, .i32⟩ : BufTy).Contents (Elt Ideal))
    (x6 : (⟨S31090x768, .f32⟩ : BufTy).Contents (Elt Ideal)) (x7 : (⟨S768x768, .f32⟩ : BufTy).Contents (Elt Ideal))
    (x8 : (⟨S768, .f32⟩ : BufTy).Contents (Elt Ideal)) (x13 : (⟨S128x128, .f32⟩ : BufTy).Contents (Elt Ideal))
    (x14 : (⟨S780x128, .f32⟩ : BufTy).Contents (Elt Ideal)) (x15 : (⟨S128, .f32⟩ : BufTy).Contents (Elt Ideal))
    (bp : Mat 1 768) (b0 : Mat 1 128) (wra : Mat 768 128) (wrb : Mat 12 128)
    (hbp : ∀ q : Fin 768, bp (ix2 0 q) = x8 (ix1 q)) (hb0 : ∀ q : Fin 128, b0 (ix2 0 q) = x15 (ix1 q))
    (hwa : ∀ (k : Fin 768) (q : Fin 128), wra (ix2 k q) = x14 (ix2 (⟨k.val, by omega⟩ : Fin 780) q))
    (hwb : ∀ (k : Fin 12) (q : Fin 128), wrb (ix2 k q) = x14 (ix2 (⟨768 + k.val, by omega⟩ : Fin 780) q)) :
    val_main_v89 (F := Ideal) x0 x1 x2 x4 x5 x6 x7 x8 x13 x14 x15
      = sage0 (val_main_v8 (F := Ideal) x1 x6) x7 bp x2 wrb (val_main_v82 (F := Ideal) x0 x4 x5) x13 wra b0 := by
  funext i
  have h83 : val_main_v83 (F := Ideal) x0 x4 x5 x13 i = mm (val_main_v82 (F := Ideal) x0 x4 x5) x13 (i 0) (i 1) := by
    unfold val_main_v83
    exact dotGeneral_eq_mm _ rfl rfl lhs_main_v83_0 lhs_main_v83_1 rhs_main_v83_0 rhs_main_v83_1 _ _ i
  have h84 := ref_joined_product x1 x2 x6 x7 x8 x14 bp wra wrb hbp hwa hwb i
  have h87 : val_main_v87 (F := Ideal) x15 i = b0 (ix2 0 (i 1)) := (ref_bias128 x15 i).trans (hb0 (i 1)).symm
  rw [val_main_v89_apply, val_main_v88_apply, val_main_v85_apply, h83, h84, h87, ref_zero, sage0_apply]
  simp only [Ideal.maximumf_def, Ideal.addf_def]
  generalize mm (val_main_v82 (F := Ideal) x0 x4 x5) x13 (i 0) (i 1) = sMean
  generalize mm (pooled (val_main_v8 (F := Ideal) x1 x6) x7 bp) wra (i 0) (i 1) = sPooled
  generalize mm x2 wrb (i 0) (i 1) = sFeat
  generalize b0 (ix2 0 (i 1)) = sBias
  rw [add_comm sMean]

end Cert.Bridge

end
-- ==== Proof.RefHead.lean ====
/-
  The reference's last stage is the second layer followed by the linear head.

  The reference multiplies the neighbour means by the left weight and the node features by the right weight, adds the
  two products, adds the bias vector to every row, clamps below at zero, multiplies by the head weight and adds the
  head's bias vector to every row. A bias vector of length `n` reaches entry `(p, q)` through a `1×n` row and then
  an `M×n` matrix, both of which read entry `q` of the vector. Each host product at an entry is the sum over the shared
  axis, so the whole stage at entry `(p, q)` is

      Σ_k  max ((Σ_a mean (p, a) · Wl (a, k) + Σ_a feat (p, a) · Wr (a, k)) + b (k), 0) · L (k, q)  +  lb (q).
-/
import proofs.«113858_j52561809768706_2_alg».proof.Proof.Gen.ReferenceIdeal.Read
import proofs.«113858_j52561809768706_2_alg».proof.Proof.LibMatmulAt

noncomputable section

open Idealize.ShloMosaic Idealize.ShloMosaic.ValueIdx Cert.ReferenceIdeal Cert.ReferenceIdeal.Read Cert.Dense
open scoped BigOperators

namespace Cert.Bridge

/-- The clamped stage: the two products added, the bias vector added to every row, the maximum with zero. -/
theorem ref_hidden (x0 : (⟨S50000x128, .f32⟩ : BufTy).Contents (Elt Ideal)) (x1 : (⟨S25000x350, .i32⟩ : BufTy).Contents (Elt Ideal)) (x2 : (⟨S25000x12, .f32⟩ : BufTy).Contents (Elt Ideal)) (x3 : (⟨S2x800000, .i32⟩ : BufTy).Contents (Elt Ideal)) (x4 : (⟨S800000, .i32⟩ : BufTy).Contents (Elt Ideal)) (x5 : (⟨S800000, .i32⟩ : BufTy).Contents (Elt Ideal)) (x6 : (⟨S31090x768, .f32⟩ : BufTy).Contents (Elt Ideal)) (x7 : (⟨S768x768, .f32⟩ : BufTy).Contents (Elt Ideal)) (x8 : (⟨S768, .f32⟩ : BufTy).Contents (Elt Ideal)) (x9 : (⟨S128x128, .f32⟩ : BufTy).Contents (Elt Ideal)) (x10 : (⟨S128, .f32⟩ : BufTy).Contents (Elt Ideal)) (x13 : (⟨S128x128, .f32⟩ : BufTy).Contents (Elt Ideal)) (x14 : (⟨S780x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal))
    (b1 : Mat 1 128) (hb1 : ∀ q : Fin 128, b1 (ix2 0 q) = x18 (ix1 q)) :
    val_main_v160 (F := Ideal) x0 x1 x2 x3 x4 x5 x6 x7 x8 x9 x10 x13 x14 x15 x16 x17 x18
      = hidden1 (val_main_v153 (F := Ideal) x0 x3 x4 x5 x9 x10) x16 (val_main_v89 (F := Ideal) x0 x1 x2 x4 x5 x6 x7 x8 x13 x14 x15) x17 b1 := by
  funext i
  have e1 : val_main_v154 (F := Ideal) x0 x3 x4 x5 x9 x10 x16 i = mm (val_main_v153 (F := Ideal) x0 x3 x4 x5 x9 x10) x16 (i 0) (i 1) := by
    unfold val_main_v154
    exact dotGeneral_eq_mm _ rfl rfl lhs_main_v154_0 lhs_main_v154_1 rhs_main_v154_0 rhs_main_v154_1 _ _ i
  have e2 : val_main_v155 (F := Ideal) x0 x1 x2 x4 x5 x6 x7 x8 x13 x14 x15 x17 i = mm (val_main_v89 (F := Ideal) x0 x1 x2 x4 x5 x6 x7 x8 x13 x14 x15) x17 (i 0) (i 1) := by
    unfold val_main_v155
    exact dotGeneral_eq_mm _ rfl rfl lhs_main_v155_0 lhs_main_v155_1 rhs_main_v155_0 rhs_main_v155_1 _ _ i
  have e3 : val_main_v158 (F := Ideal) x18 i = b1 (ix2 0 (i 1)) := by
    have hi : idx_main_v157 (idx_main_v158 i) = ix1 (n := 128) (i 1) := funext fun a => match a with | ⟨0, _⟩ => rfl
    rw [val_main_v158_apply, val_main_v157_apply, hi]
    exact (hb1 (i 1)).symm
  have e4 : val_main_call3_v0 (F := Ideal) i = 0 := by
    rw [val_main_call3_v0_apply, val_main_call3_cst_apply]
    exact Ideal.ofBits_zero_f32
  rw [val_main_v160_apply, val_main_v159_apply, val_main_v156_apply, e1, e2, e3, e4]
  rfl

/-- The reference's last stage is the second layer with its head, of the stages that feed it. -/
theorem ref_head (x0 : (⟨S50000x128, .f32⟩ : BufTy).Contents (Elt Ideal)) (x1 : (⟨S25000x350, .i32⟩ : BufTy).Contents (Elt Ideal)) (x2 : (⟨S25000x12, .f32⟩ : BufTy).Contents (Elt Ideal)) (x3 : (⟨S2x800000, .i32⟩ : BufTy).Contents (Elt Ideal)) (x4 : (⟨S800000, .i32⟩ : BufTy).Contents (Elt Ideal)) (x5 : (⟨S800000, .i32⟩ : BufTy).Contents (Elt Ideal)) (x6 : (⟨S31090x768, .f32⟩ : BufTy).Contents (Elt Ideal)) (x7 : (⟨S768x768, .f32⟩ : BufTy).Contents (Elt Ideal)) (x8 : (⟨S768, .f32⟩ : BufTy).Contents (Elt Ideal)) (x9 : (⟨S128x128, .f32⟩ : BufTy).Contents (Elt Ideal)) (x10 : (⟨S128, .f32⟩ : BufTy).Contents (Elt Ideal)) (x13 : (⟨S128x128, .f32⟩ : BufTy).Contents (Elt Ideal)) (x14 : (⟨S780x128, .f32⟩ : BufTy).Contents (Elt Ideal)) (x15 : (⟨S128, .f32⟩ : BufTy).Contents (Elt Ideal)) (x16 : (⟨S128x128, .f32⟩ : BufTy).Contents (Elt Ideal)) (x17 : (⟨S128x128, .f32⟩ : BufTy).Contents (Elt Ideal)) (x18 : (⟨S128, .f32⟩ : BufTy).Contents (Elt Ideal)) (x19 : (⟨S128x64, .f32⟩ : BufTy).Contents (Elt Ideal)) (x20 : (⟨S64, .f32⟩ : BufTy).Contents (Elt Ideal))
    (b1 : Mat 1 128) (lb : Mat 1 64) (hb1 : ∀ q : Fin 128, b1 (ix2 0 q) = x18 (ix1 q))
    (hlb : ∀ q : Fin 64, lb (ix2 0 q) = x20 (ix1 q)) :
    val_main_v164 (F := Ideal) x0 x1 x2 x3 x4 x5 x6 x7 x8 x9 x10 x13 x14 x15 x16 x17 x18 x19 x20
      = sage1lin (val_main_v153 (F := Ideal) x0 x3 x4 x5 x9 x10) x16 (val_main_v89 (F := Ideal) x0 x1 x2 x4 x5 x6 x7 x8 x13 x14 x15) x17 b1 x19 lb := by
  funext i
  have e1 : val_main_v161 (F := Ideal) x0 x1 x2 x3 x4 x5 x6 x7 x8 x9 x10 x13 x14 x15 x16 x17 x18 x19 i
      = mm (val_main_v160 (F := Ideal) x0 x1 x2 x3 x4 x5 x6 x7 x8 x9 x10 x13 x14 x15 x16 x17 x18) x19 (i 0) (i 1) := by
    unfold val_main_v161
    exact dotGeneral_eq_mm _ rfl rfl lhs_main_v161_0 lhs_main_v161_1 rhs_main_v161_0 rhs_main_v161_1 _ _ i
  have e2 : val_main_v163 (F := Ideal) x20 i = lb (ix2 0 (i 1)) := by
    have hi : idx_main_v162 (idx_main_v163 i) = ix1 (n := 64) (i 1) := funext fun a => match a with | ⟨0, _⟩ => rfl
    rw [val_main_v163_apply, val_main_v162_apply, hi]
    exact (hlb (i 1)).symm
  rw [val_main_v164_apply, e1, e2, ref_hidden x0 x1 x2 x3 x4 x5 x6 x7 x8 x9 x10 x13 x14 x15 x16 x17 x18 b1 hb1]
  rfl

end Cert.Bridge

end
-- ==== Proof.KHostKeep.lean ====
/-
  Buffers that a stretch of the kernel program leaves alone.

  A stretch of host operations changes only the buffers its operations write; a dense stage changes only its output
  array. So a buffer written earlier (an argument, or an intermediate array) is read at a later boundary as what it
  held when it was last written: each lemma below walks one buffer back, boundary by boundary, to the boundary where
  it was written (or to the launch memory, for an argument).
-/
import proofs.«113858_j52561809768706_2_alg».proof.Proof.Gen.KernelIdeal.Frame
import Idealize.ShloMosaic.PureOps.Ideal

set_option maxRecDepth 16384

noncomputable section

open Idealize.ShloMosaic Idealize.ShloMosaic.TcCoe Idealize.SL.Sem
open Cert.KernelIdeal Cert.KernelIdeal.Gen

namespace Cert.Bridge

/-- No operation of the stretch writes the buffer, so the stretch leaves it as it was: the stretch's operations are
    listed, each one's written buffer compared with this one. -/
macro "host_keeps" : tactic => `(tactic| (
  refine StableHlo.after_of_forall_not_mem _ _ (List.forall_iff_forall_mem.mp ?_)
  simp only [hostOps0, hostOps1, hostOps1_1, hostOps1_2, hostOps2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps
    _ = m ((c : Thread nD τ).loc main_arg0) := rfl

theorem W1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := by host_keeps
    _ = m ((c : Thread nD τ).loc main_arg9) := rfl

theorem W5_v8 (c : Dev nD) : W5 m ρ c (Proc.devRef .tc main_v8) = W1 m ρ c (Proc.devRef .tc main_v8) :=
  calc W5 m ρ c (Proc.devRef .tc main_v8)
    _ = W4 m ρ c (Proc.devRef .tc main_v8) := by host_keeps
    _ = W3 m ρ c (Proc.devRef .tc main_v8) := by host_keeps
    _ = W2 m ρ c (Proc.devRef .tc main_v8) := by host_keeps
    _ = W1 m ρ c (Proc.devRef .tc main_v8) := W2_of_ne m ρ c main_v8 (by decide)

theorem W5_v9 (c : Dev nD) : W5 m ρ c (Proc.devRef .tc main_v9) = W1 m ρ c (Proc.devRef .tc main_v9) :=
  calc W5 m ρ c (Proc.devRef .tc main_v9)
    _ = W4 m ρ c (Proc.devRef .tc main_v9) := by host_keeps
    _ = W3 m ρ c (Proc.devRef .tc main_v9) := by host_keeps
    _ = W2 m ρ c (Proc.devRef .tc main_v9) := by host_keeps
    _ = W1 m ρ c (Proc.devRef .tc main_v9) := W2_of_ne m ρ c main_v9 (by decide)

theorem W5_v10 (c : Dev nD) : W5 m ρ c (Proc.devRef .tc main_v10) = W1 m ρ c (Proc.devRef .tc main_v10) :=
  calc W5 m ρ c (Proc.devRef .tc main_v10)
    _ = W4 m ρ c (Proc.devRef .tc main_v10) := by host_keeps
    _ = W3 m ρ c (Proc.devRef .tc main_v10) := by host_keeps
    _ = W2 m ρ c (Proc.devRef .tc main_v10) := by host_keeps
    _ = W1 m ρ c (Proc.devRef .tc main_v10) := W2_of_ne m ρ c main_v10 (by decide)

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by host_keeps
    _ = W3 m ρ c (Proc.devRef .tc main_arg7) := by host_keeps
    _ = W2 m ρ c (Proc.devRef .tc main_arg7) := by host_keeps
    _ = W1 m ρ c (Proc.devRef .tc main_arg7) := W2_of_ne m ρ c main_arg7 (by decide)
    _ = W0 m ρ c (Proc.devRef .tc main_arg7) := by host_keeps
    _ = m ((c : Thread nD τ).loc main_arg7) := rfl

theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by host_keeps
    _ = W3 m ρ c (Proc.devRef .tc main_arg2) := by host_keeps
    _ = W2 m ρ c (Proc.devRef .tc main_arg2) := by host_keeps
    _ = W1 m ρ c (Proc.devRef .tc main_arg2) := W2_of_ne m ρ c main_arg2 (by decide)
    _ = W0 m ρ c (Proc.devRef .tc main_arg2) := by host_keeps
    _ = m ((c : Thread nD τ).loc main_arg2) := rfl

theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := by host_keeps
    _ = W3 m ρ c (Proc.devRef .tc main_arg13) := by host_keeps
    _ = W2 m ρ c (Proc.devRef .tc main_arg13) := by host_keeps
    _ = W1 m ρ c (Proc.devRef .tc main_arg13) := W2_of_ne m ρ c main_arg13 (by decide)
    _ = W0 m ρ c (Proc.devRef .tc main_arg13) := by host_keeps
    _ = m ((c : Thread nD τ).loc main_arg13) := rfl

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by host_keeps
    _ = W2 m ρ c (Proc.devRef .tc main_arg0) := by host_keeps
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_keeps
    _ = m ((c : Thread nD τ).loc main_arg0) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by host_keeps
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by host_keeps
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := by host_keeps
    _ = W2 m ρ c (Proc.devRef .tc main_arg8) := by host_keeps
    _ = W1 m ρ c (Proc.devRef .tc main_arg8) := W2_of_ne m ρ c main_arg8 (by decide)
    _ = W0 m ρ c (Proc.devRef .tc main_arg8) := by host_keeps
    _ = m ((c : Thread nD τ).loc main_arg8) := rfl

theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := by host_keeps
    _ = W2 m ρ c (Proc.devRef .tc main_arg15) := by host_keeps
    _ = W1 m ρ c (Proc.devRef .tc main_arg15) := W2_of_ne m ρ c main_arg15 (by decide)
    _ = W0 m ρ c (Proc.devRef .tc main_arg15) := by host_keeps
    _ = m ((c : Thread nD τ).loc main_arg15) := rfl

theorem W2_v12 (c : Dev nD) : W2 m ρ c (Proc.devRef .tc main_v12) = W1 m ρ c (Proc.devRef .tc main_v12) :=
  calc W2 m ρ c (Proc.devRef .tc main_v12)
    _ = W1 m ρ c (Proc.devRef .tc main_v12) := W2_of_ne m ρ c main_v12 (by decide)

theorem W2_v14 (c : Dev nD) : W2 m ρ c (Proc.devRef .tc main_v14) = W1 m ρ c (Proc.devRef .tc main_v14) :=
  calc W2 m ρ c (Proc.devRef .tc main_v14)
    _ = W1 m ρ c (Proc.devRef .tc main_v14) := W2_of_ne m ρ c main_v14 (by decide)

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_keeps
    _ = m ((c : Thread nD τ).loc main_arg10) := rfl

theorem W6_v63 (c : Dev nD) : W6 m ρ c (Proc.devRef .tc main_v63) = W4 m ρ c (Proc.devRef .tc main_v63) :=
  calc W6 m ρ c (Proc.devRef .tc main_v63)
    _ = W5 m ρ c (Proc.devRef .tc main_v63) := W6_of_ne m ρ c main_v63 (by decide)
    _ = W4 m ρ c (Proc.devRef .tc main_v63) := by host_keeps

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps
    _ = W3 m ρ c (Proc.devRef .tc main_arg4) := by host_keeps
    _ = W2 m ρ c (Proc.devRef .tc main_arg4) := by host_keeps
    _ = W1 m ρ c (Proc.devRef .tc main_arg4) := W2_of_ne m ρ c main_arg4 (by decide)
    _ = W0 m ρ c (Proc.devRef .tc main_arg4) := by host_keeps
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps
    _ = W3 m ρ c (Proc.devRef .tc main_arg5) := by host_keeps
    _ = W2 m ρ c (Proc.devRef .tc main_arg5) := by host_keeps
    _ = W1 m ρ c (Proc.devRef .tc main_arg5) := W2_of_ne m ρ c main_arg5 (by decide)
    _ = W0 m ρ c (Proc.devRef .tc main_arg5) := by host_keeps
    _ = m ((c : Thread nD τ).loc main_arg5) := rfl

theorem W6_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := by host_keeps
    _ = W3 m ρ c (Proc.devRef .tc main_arg18) := by host_keeps
    _ = W2 m ρ c (Proc.devRef .tc main_arg18) := by host_keeps
    _ = W1 m ρ c (Proc.devRef .tc main_arg18) := W2_of_ne m ρ c main_arg18 (by decide)
    _ = W0 m ρ c (Proc.devRef .tc main_arg18) := by host_keeps
    _ = m ((c : Thread nD τ).loc main_arg18) := rfl

theorem W6_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := by host_keeps
    _ = W3 m ρ c (Proc.devRef .tc main_arg20) := by host_keeps
    _ = W2 m ρ c (Proc.devRef .tc main_arg20) := by host_keeps
    _ = W1 m ρ c (Proc.devRef .tc main_arg20) := W2_of_ne m ρ c main_arg20 (by decide)
    _ = W0 m ρ c (Proc.devRef .tc main_arg20) := by host_keeps
    _ = m ((c : Thread nD τ).loc main_arg20) := rfl

theorem W7_v87 (c : Dev nD) : W7 m ρ c (Proc.devRef .tc main_v87) = W6 m ρ c (Proc.devRef .tc main_v87) :=
  calc W7 m ρ c (Proc.devRef .tc main_v87)
    _ = W6 m ρ c (Proc.devRef .tc main_v87) := by host_keeps

theorem W7_arg16 (c : Dev nD) : W7 m ρ c (Proc.devRef .tc main_arg16) = m ((c : Thread nD τ).loc main_arg16) :=
  calc W7 m ρ c (Proc.devRef .tc main_arg16)
    _ = W6 m ρ c (Proc.devRef .tc main_arg16) := by host_keeps
    _ = W5 m ρ c (Proc.devRef .tc main_arg16) := W6_of_ne m ρ c main_arg16 (by decide)
    _ = W4 m ρ c (Proc.devRef .tc main_arg16) := by host_keeps
    _ = W3 m ρ c (Proc.devRef .tc main_arg16) := by host_keeps
    _ = W2 m ρ c (Proc.devRef .tc main_arg16) := by host_keeps
    _ = W1 m ρ c (Proc.devRef .tc main_arg16) := W2_of_ne m ρ c main_arg16 (by decide)
    _ = W0 m ρ c (Proc.devRef .tc main_arg16) := by host_keeps
    _ = m ((c : Thread nD τ).loc main_arg16) := rfl

theorem W7_arg17 (c : Dev nD) : W7 m ρ c (Proc.devRef .tc main_arg17) = m ((c : Thread nD τ).loc main_arg17) :=
  calc W7 m ρ c (Proc.devRef .tc main_arg17)
    _ = W6 m ρ c (Proc.devRef .tc main_arg17) := by host_keeps
    _ = W5 m ρ c (Proc.devRef .tc main_arg17) := W6_of_ne m ρ c main_arg17 (by decide)
    _ = W4 m ρ c (Proc.devRef .tc main_arg17) := by host_keeps
    _ = W3 m ρ c (Proc.devRef .tc main_arg17) := by host_keeps
    _ = W2 m ρ c (Proc.devRef .tc main_arg17) := by host_keeps
    _ = W1 m ρ c (Proc.devRef .tc main_arg17) := W2_of_ne m ρ c main_arg17 (by decide)
    _ = W0 m ρ c (Proc.devRef .tc main_arg17) := by host_keeps
    _ = m ((c : Thread nD τ).loc main_arg17) := rfl

theorem W7_arg19 (c : Dev nD) : W7 m ρ c (Proc.devRef .tc main_arg19) = m ((c : Thread nD τ).loc main_arg19) :=
  calc W7 m ρ c (Proc.devRef .tc main_arg19)
    _ = W6 m ρ c (Proc.devRef .tc main_arg19) := by host_keeps
    _ = W5 m ρ c (Proc.devRef .tc main_arg19) := W6_of_ne m ρ c main_arg19 (by decide)
    _ = W4 m ρ c (Proc.devRef .tc main_arg19) := by host_keeps
    _ = W3 m ρ c (Proc.devRef .tc main_arg19) := by host_keeps
    _ = W2 m ρ c (Proc.devRef .tc main_arg19) := by host_keeps
    _ = W1 m ρ c (Proc.devRef .tc main_arg19) := W2_of_ne m ρ c main_arg19 (by decide)
    _ = W0 m ρ c (Proc.devRef .tc main_arg19) := by host_keeps
    _ = m ((c : Thread nD τ).loc main_arg19) := rfl

end Cert.Bridge

end
-- ==== Proof.KHostTerms.lean ====
/-
  The kernel program's host stretches, read as the reference's stages.

  Between its dense stages the kernel program runs stretches of host operations: slices of the index and weight
  arrays, reshapes of the bias vectors to single rows, the normalized neighbour sums (gather rows, scale, scatter-add,
  divide) that feed each dense stage. Each stretch applies, to the buffers it finds, the same operations in the same
  order as the reference applies to its own earlier stages; a row gathered through a change of float format and back
  is the row itself, since the change does nothing to an extended real. So every array a stretch writes is the
  reference's stage of the same arguments, and a bias row or a weight slice is read entry by entry off the argument
  it was cut from.
-/
import proofs.«113858_j52561809768706_2_alg».proof.Proof.Gen.KernelIdeal.Frame
import proofs.«113858_j52561809768706_2_alg».proof.Proof.Gen.ReferenceIdeal.Read
import proofs.«113858_j52561809768706_2_alg».proof.Proof.KHostKeep

set_option maxRecDepth 16384

noncomputable section

open Idealize.ShloMosaic Idealize.ShloMosaic.TcCoe Idealize.ShloMosaic.ValueIdx Idealize.SL.Sem
open Idealize.ShloMosaic.StableHlo
open Cert.KernelIdeal Cert.KernelIdeal.Gen

namespace Cert.Bridge

variable (m : (ℓ : Loc nD τ sig) → Buf (Elt Ideal) ℓ) (ρ : Dev nD → PrngReg)

/-! ## Typed references

A called function's operations carry each buffer's contents to the tensor type the call site names and back. Both
moves are the identity: there and back for any reference, and each single move at a buffer whose type is that tensor
type. -/

/-- Carrying contents to a reference's own type and back leaves them unchanged. -/
theorem ofBuf_toBuf {T : BufTy} (x : TRef sig T) (v : T.Contents (Elt Ideal)) : x.ofBuf (x.toBuf v) = v := by
  obtain ⟨r, h, _, _⟩ := x
  subst h
  rfl

theorem ofBuf_main_v62 (h1 : main_v62.ty = ⟨S50000x128, .f32⟩) (h2 : main_v62.space ≠ .host)
    (h3 : main_v62.isScoped = false) (P : (⟨S50000x128, .f32⟩ : BufTy).Contents (Elt Ideal)) :
    (TRef.of (sig := sig) main_v62 h1 h2 h3).ofBuf P = P := rfl

theorem toBuf_main_v63 (h1 : main_v63.ty = ⟨S50000x128, .f32⟩) (h2 : main_v63.space ≠ .host)
    (h3 : main_v63.isScoped = false) (M : (⟨S50000x128, .f32⟩ : BufTy).Contents (Elt Ideal)) :
    (TRef.of (sig := sig) main_v63 h1 h2 h3).toBuf M = M := rfl

/-! ## The first stretch, over the launch memory -/

/-- The zero bias row of the first projection: a zero constant repeated to 128 entries and reshaped to one row. -/
theorem W1_v16_zero (c : Dev nD) (y : S1x128.Idx) :
    W1 m ρ c (Proc.devRef .tc main_v16) y = (0 : EReal) := by
  show StableHlo.after hostOps0 (W0 m ρ c) (Proc.devRef .tc main_v16) y = (0 : EReal)
  after_results_simp
  have h : ∀ k : S128.Idx,
      broadcastInDim S128 ![] bcast_S_S128 (constant (F := Ideal) S_ .f32 0x00000000#32) k = 0 := fun k => by
    rw [broadcastInDim_apply _ bcast_S_S128 _ k (fun a => a.elim0) (fun a => a.elim0)]
    exact Ideal.ofBits_zero_f32
  unfold shapeCast
  exact h _

/-- The gathered class-token rows are the reference's gather of the same two arguments. -/
theorem W1_v8 (c : Dev nD) :
    W1 m ρ c (Proc.devRef .tc main_v8) = Cert.ReferenceIdeal.Read.val_main_v8 (F := Ideal) (m ((c : Thread nD τ).loc main_arg1)) (m ((c : Thread nD τ).loc main_arg6)) := by
  show StableHlo.after hostOps0 (W0 m ρ c) (Proc.devRef .tc main_v8) = _
  after_results_simp
  rfl

/-- Rows 0 … 767 of the 780×128 weight. -/
theorem W1_v9_apply (c : Dev nD) (k : Fin 768) (q : Fin 128) :
    W1 m ρ c (Proc.devRef .tc main_v9) (ix2 k q) = (m ((c : Thread nD τ).loc main_arg14)) (ix2 ⟨k.val, by omega⟩ q) := by
  show StableHlo.after hostOps0 (W0 m ρ c) (Proc.devRef .tc main_v9) (ix2 k q) = _
  after_results_simp
  exact extractStridedSlice_apply ![0, 0] _ slices_S780x128_S768x128_0_0 (ix2 k q) (ix2 ⟨k.val, by omega⟩ q)
    (fun a => match a with
      | ⟨0, _⟩ => by show k.val = 0 + k.val; omega
      | ⟨1, _⟩ => by show q.val = 0 + q.val; omega)

/-- Rows 768 … 779 of the 780×128 weight. -/
theorem W1_v10_apply (c : Dev nD) (k : Fin 12) (q : Fin 128) :
    W1 m ρ c (Proc.devRef .tc main_v10) (ix2 k q) = (m ((c : Thread nD τ).loc main_arg14)) (ix2 ⟨768 + k.val, by omega⟩ q) := by
  show StableHlo.after hostOps0 (W0 m ρ c) (Proc.devRef .tc main_v10) (ix2 k q) = _
  after_results_simp
  exact extractStridedSlice_apply ![768, 0] _ slices_S780x128_S12x128_768_0 (ix2 k q) (ix2 ⟨768 + k.val, by omega⟩ q)
    (fun a => match a with
      | ⟨0, _⟩ => by show 768 + k.val = 768 + k.val; rfl
      | ⟨1, _⟩ => by show q.val = 0 + q.val; omega)

/-- The two rows of the edge list, each as a vector of 800000 indices. -/
theorem W1_v12 (c : Dev nD) : W1 m ρ c (Proc.devRef .tc main_v12) = Cert.ReferenceIdeal.Read.val_main_v16 (F := Ideal) (m ((c : Thread nD τ).loc main_arg3)) := by
  show StableHlo.after hostOps0 (W0 m ρ c) (Proc.devRef .tc main_v12) = _
  after_results_simp
  rfl

theorem W1_v14 (c : Dev nD) : W1 m ρ c (Proc.devRef .tc main_v14) = Cert.ReferenceIdeal.Read.val_main_v18 (F := Ideal) (m ((c : Thread nD τ).loc main_arg3)) := by
  show StableHlo.after hostOps0 (W0 m ρ c) (Proc.devRef .tc main_v14) = _
  after_results_simp
  rfl

/-! ## The stretches before the second dense stage -/

/-- The normalized neighbour sum of the first projection, with its bias: the reference's stage 62, given that the
    first dense stage left the reference's product in its output array. -/
theorem W3_v62 (c : Dev nD)
    (h17 : W2 m ρ c (Proc.devRef .tc main_v17) = Cert.ReferenceIdeal.Read.val_main_v19 (F := Ideal) (m ((c : Thread nD τ).loc main_arg0)) (m ((c : Thread nD τ).loc main_arg9))) :
    W3 m ρ c (Proc.devRef .tc main_v62) = Cert.ReferenceIdeal.Read.val_main_v62 (F := Ideal) (m ((c : Thread nD τ).loc main_arg0)) (m ((c : Thread nD τ).loc main_arg3)) (m ((c : Thread nD τ).loc main_arg9)) (m ((c : Thread nD τ).loc main_arg10)) := by
  show StableHlo.after hostOps1 (W2 m ρ c) (Proc.devRef .tc main_v62) = _
  after_results_simp
  rw [h17, W2_v12 m ρ c, W2_v14 m ρ c, W1_v12 m ρ c, W1_v14 m ρ c, W2_arg10 m ρ c]
  rfl

/-- Its maximum with zero: the reference's stage 63. -/
theorem W4_v63 (c : Dev nD)
    (h17 : W2 m ρ c (Proc.devRef .tc main_v17) = Cert.ReferenceIdeal.Read.val_main_v19 (F := Ideal) (m ((c : Thread nD τ).loc main_arg0)) (m ((c : Thread nD τ).loc main_arg9))) :
    W4 m ρ c (Proc.devRef .tc main_v63) = Cert.ReferenceIdeal.Read.val_main_v63 (F := Ideal) (m ((c : Thread nD τ).loc main_arg0)) (m ((c : Thread nD τ).loc main_arg3)) (m ((c : Thread nD τ).loc main_arg9)) (m ((c : Thread nD τ).loc main_arg10)) := by
  obtain ⟨X, hX⟩ : ∃ X, X = W3 m ρ c := ⟨_, rfl⟩
  show StableHlo.after hostOps1_1 (W3 m ρ c) (Proc.devRef .tc main_v63) = _
  rw [← hX]
  after_results_simp
  rw [hX, W3_v62 m ρ c h17, toBuf_main_v63, ofBuf_main_v62, ofBuf_toBuf, ofBuf_toBuf]
  rfl

/-- The mean of the gathered input rows over each node's neighbours: the reference's stage 82. -/
theorem W5_v84 (c : Dev nD) :
    W5 m ρ c (Proc.devRef .tc main_v84) = Cert.ReferenceIdeal.Read.val_main_v82 (F := Ideal) (m ((c : Thread nD τ).loc main_arg0)) (m ((c : Thread nD τ).loc main_arg4)) (m ((c : Thread nD τ).loc main_arg5)) := by
  obtain ⟨X, hX⟩ : ∃ X, X = W4 m ρ c := ⟨_, rfl⟩
  show StableHlo.after hostOps1_2 (W4 m ρ c) (Proc.devRef .tc main_v84) = _
  rw [← hX]
  after_results_simp
  rw [hX, W4_arg0 m ρ c, W4_arg4 m ρ c, W4_arg5 m ρ c]
  rfl

/-- The pooling bias as one row of 768 entries. -/
theorem W5_v85_apply (c : Dev nD) (q : Fin 768) :
    W5 m ρ c (Proc.devRef .tc main_v85) (ix2 0 q) = (m ((c : Thread nD τ).loc main_arg8)) (ix1 q) := by
  obtain ⟨X, hX⟩ : ∃ X, X = W4 m ρ c := ⟨_, rfl⟩
  show StableHlo.after hostOps1_2 (W4 m ρ c) (Proc.devRef .tc main_v85) (ix2 0 q) = _
  rw [← hX]
  after_results_simp
  rw [hX, W4_arg8 m ρ c]
  refine shapeCast_apply _ shapeCasts_S768_S1x768 (ix2 0 q) (ix1 q) ?_
  rw [Shape.rowMajor_val_one, Shape.rowMajor_val_two]
  show q.val = 0 * 768 + q.val
  omega

/-- The first layer's bias as one row of 128 entries. -/
theorem W5_v86_apply (c : Dev nD) (q : Fin 128) :
    W5 m ρ c (Proc.devRef .tc main_v86) (ix2 0 q) = (m ((c : Thread nD τ).loc main_arg15)) (ix1 q) := by
  obtain ⟨X, hX⟩ : ∃ X, X = W4 m ρ c := ⟨_, rfl⟩
  show StableHlo.after hostOps1_2 (W4 m ρ c) (Proc.devRef .tc main_v86) (ix2 0 q) = _
  rw [← hX]
  after_results_simp
  rw [hX, W4_arg15 m ρ c]
  refine shapeCast_apply _ shapeCasts_S128_S1x128 (ix2 0 q) (ix1 q) ?_
  rw [Shape.rowMajor_val_one, Shape.rowMajor_val_two]
  show q.val = 0 * 128 + q.val
  omega

/-! ## The stretch before the third dense stage -/

/-- The mean of the gathered hidden rows over each node's neighbours: the reference's stage 153, given that the
    hidden array still holds the reference's stage 63. -/
theorem W7_v108 (c : Dev nD)
    (h63 : W6 m ρ c (Proc.devRef .tc main_v63) = Cert.ReferenceIdeal.Read.val_main_v63 (F := Ideal) (m ((c : Thread nD τ).loc main_arg0)) (m ((c : Thread nD τ).loc main_arg3)) (m ((c : Thread nD τ).loc main_arg9)) (m ((c : Thread nD τ).loc main_arg10))) :
    W7 m ρ c (Proc.devRef .tc main_v108) = Cert.ReferenceIdeal.Read.val_main_v153 (F := Ideal) (m ((c : Thread nD τ).loc main_arg0)) (m ((c : Thread nD τ).loc main_arg3)) (m ((c : Thread nD τ).loc main_arg4)) (m ((c : Thread nD τ).loc main_arg5)) (m ((c : Thread nD τ).loc main_arg9)) (m ((c : Thread nD τ).loc main_arg10)) := by
  show StableHlo.after hostOps2 (W6 m ρ c) (Proc.devRef .tc main_v108) = _
  after_results_simp
  rw [h63, W6_arg4 m ρ c, W6_arg5 m ρ c]
  rfl

/-- The second layer's bias as one row of 128 entries. -/
theorem W7_v109_apply (c : Dev nD) (q : Fin 128) :
    W7 m ρ c (Proc.devRef .tc main_v109) (ix2 0 q) = (m ((c : Thread nD τ).loc main_arg18)) (ix1 q) := by
  show StableHlo.after hostOps2 (W6 m ρ c) (Proc.devRef .tc main_v109) (ix2 0 q) = _
  after_results_simp
  rw [W6_arg18 m ρ c]
  refine shapeCast_apply _ shapeCasts_S128_S1x128 (ix2 0 q) (ix1 q) ?_
  rw [Shape.rowMajor_val_one, Shape.rowMajor_val_two]
  show q.val = 0 * 128 + q.val
  omega

/-- The head's bias as one row of 64 entries. -/
theorem W7_v110_apply (c : Dev nD) (q : Fin 64) :
    W7 m ρ c (Proc.devRef .tc main_v110) (ix2 0 q) = (m ((c : Thread nD τ).loc main_arg20)) (ix1 q) := by
  show StableHlo.after hostOps2 (W6 m ρ c) (Proc.devRef .tc main_v110) (ix2 0 q) = _
  after_results_simp
  rw [W6_arg20 m ρ c]
  refine shapeCast_apply _ shapeCasts_S64_S1x64 (ix2 0 q) (ix1 q) ?_
  rw [Shape.rowMajor_val_one, Shape.rowMajor_val_two]
  show q.val = 0 * 64 + q.val
  omega

end Cert.Bridge

end
-- ==== Proof.KernelValue.lean ====
/-
  What the kernel program returns, as a function of its arguments.

  The returned buffer is followed back through the eight segments. The third dense stage leaves in it
  `sage1lin` of the arrays it is entered with; of those, the neighbour mean of the first author layer is what the
  host operations before it compute (the same gathers and scatters as the reference's, through a change of float
  format that is the identity on extended reals), the first paper layer is what the second dense stage left, which
  is `sage0` of ITS entry arrays, and so on down to the first dense stage, whose output is `x·w + 0`. At each step
  the kernel's array is identified with the reference program's stage of the same name, so that the returned
  buffer is the reference's result stage of the kernel's arguments.
-/
import proofs.«113858_j52561809768706_2_alg».proof.Proof.KernelRun
import proofs.«113858_j52561809768706_2_alg».proof.Proof.Region0
import proofs.«113858_j52561809768706_2_alg».proof.Proof.Region1
import proofs.«113858_j52561809768706_2_alg».proof.Proof.Region2
import proofs.«113858_j52561809768706_2_alg».proof.Proof.RefProj
import proofs.«113858_j52561809768706_2_alg».proof.Proof.RefSage0
import proofs.«113858_j52561809768706_2_alg».proof.Proof.RefHead
import proofs.«113858_j52561809768706_2_alg».proof.Proof.KHostKeep
import proofs.«113858_j52561809768706_2_alg».proof.Proof.KHostTerms

set_option maxRecDepth 16384

noncomputable section

open Idealize.ShloMosaic Idealize.ShloMosaic.TcCoe Idealize.ShloMosaic.ValueIdx Idealize.SL.Sem
open Cert.KernelIdeal Cert.KernelIdeal.Gen

namespace Cert.Bridge

variable (m : (ℓ : Loc nD τ sig) → Buf (Elt Ideal) ℓ) (ρ : Dev nD → PrngReg)

/-- The first dense stage's output is the reference's first author projection: `x·w + 0 = x·w`. -/
theorem W2_v17 (c : Dev nD) : W2 m ρ c (Proc.devRef .tc main_v17) = Cert.ReferenceIdeal.Read.val_main_v19 (F := Ideal) (m ((c : Thread nD τ).loc main_arg0)) (m ((c : Thread nD τ).loc main_arg9)) := by
  refine (W2_arr m ρ c 3).trans ?_
  rw [region0_array (V1 m ρ) c,
    show V1 m ρ c main_arg0 = (m ((c : Thread nD τ).loc main_arg0)) from W1_arg0 m ρ c,
    show V1 m ρ c main_arg9 = (m ((c : Thread nD τ).loc main_arg9)) from W1_arg9 m ρ c]
  exact (ref_proj (m ((c : Thread nD τ).loc main_arg0)) (m ((c : Thread nD τ).loc main_arg9)) (V1 m ρ c main_v16) (W1_v16_zero m ρ c)).symm

/-- The second dense stage's output is the reference's first paper layer. -/
theorem W6_v87 (c : Dev nD) : W6 m ρ c (Proc.devRef .tc main_v87) = Cert.ReferenceIdeal.Read.val_main_v89 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) := by
  refine (W6_arr m ρ c 9).trans ?_
  rw [region1_array (V5 m ρ) c,
    show V5 m ρ c main_v8 = Cert.ReferenceIdeal.Read.val_main_v8 (F := Ideal) (m ((c : Thread nD τ).loc main_arg1)) (m ((c : Thread nD τ).loc main_arg6)) from (W5_v8 m ρ c).trans (W1_v8 m ρ c),
    show V5 m ρ c main_arg7 = (m ((c : Thread nD τ).loc main_arg7)) from W5_arg7 m ρ c,
    show V5 m ρ c main_arg2 = (m ((c : Thread nD τ).loc main_arg2)) from W5_arg2 m ρ c,
    show V5 m ρ c main_arg13 = (m ((c : Thread nD τ).loc main_arg13)) from W5_arg13 m ρ c,
    show V5 m ρ c main_v84 = Cert.ReferenceIdeal.Read.val_main_v82 (F := Ideal) (m ((c : Thread nD τ).loc main_arg0)) (m ((c : Thread nD τ).loc main_arg4)) (m ((c : Thread nD τ).loc main_arg5)) from W5_v84 m ρ c]
  exact (ref_sage0 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15))
    (V5 m ρ c main_v85) (V5 m ρ c main_v86) (V5 m ρ c main_v9) (V5 m ρ c main_v10)
    (W5_v85_apply m ρ c) (W5_v86_apply m ρ c)
    (fun k q => (congrFun (W5_v9 m ρ c) _).trans (W1_v9_apply m ρ c k q))
    (fun k q => (congrFun (W5_v10 m ρ c) _).trans (W1_v10_apply m ρ c k q))).symm

/-- The third dense stage's output, the returned buffer, is the reference's result. -/
theorem W8_v111 (c : Dev nD) : W8 m ρ c (Proc.devRef .tc main_v111) = Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h63 : W6 m ρ c (Proc.devRef .tc main_v63) = Cert.ReferenceIdeal.Read.val_main_v63 (F := Ideal) (m ((c : Thread nD τ).loc main_arg0)) (m ((c : Thread nD τ).loc main_arg3)) (m ((c : Thread nD τ).loc main_arg9)) (m ((c : Thread nD τ).loc main_arg10)) :=
    (W6_v63 m ρ c).trans (W4_v63 m ρ c (W2_v17 m ρ c))
  refine (W8_arr m ρ c 7).trans ?_
  rw [region2_array (V7 m ρ) c,
    show V7 m ρ c main_v108 = Cert.ReferenceIdeal.Read.val_main_v153 (F := Ideal) (m ((c : Thread nD τ).loc main_arg0)) (m ((c : Thread nD τ).loc main_arg3)) (m ((c : Thread nD τ).loc main_arg4)) (m ((c : Thread nD τ).loc main_arg5)) (m ((c : Thread nD τ).loc main_arg9)) (m ((c : Thread nD τ).loc main_arg10)) from W7_v108 m ρ c h63,
    show V7 m ρ c main_arg16 = (m ((c : Thread nD τ).loc main_arg16)) from W7_arg16 m ρ c,
    show V7 m ρ c main_v87 = Cert.ReferenceIdeal.Read.val_main_v89 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) from (W7_v87 m ρ c).trans (W6_v87 m ρ c),
    show V7 m ρ c main_arg17 = (m ((c : Thread nD τ).loc main_arg17)) from W7_arg17 m ρ c,
    show V7 m ρ c main_arg19 = (m ((c : Thread nD τ).loc main_arg19)) from W7_arg19 m ρ c]
  exact (ref_head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
    (V7 m ρ c main_v109) (V7 m ρ c main_v110) (W7_v109_apply m ρ c) (W7_v110_apply m ρ c)).symm

/-- The kernel program's run: it returns the reference's result stage of its own arguments, which end unchanged. -/
theorem kernel_value_run : θ_run defs (onTc (τ := τ) (main (F := Ideal))) ⟨m, fun _ => 0, ρ⟩ (fun r => ∀ c : Dev nD,
      r.2.mem ((c.tc : Thread nD τ).loc main_v111) = Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (W8_v111 m ρ c), (h c).2⟩) (run_named m ρ)

end Cert.Bridge

end
-- ==== Proof.lean ====
/-
  A two-layer heterogeneous graph network (a GCN layer on the author nodes, two SAGE layers on the paper nodes,
  a linear head), computed by three fused dense stages with the graph gathers and scatters between them, against the
  plain formulation.

  On the extended reals the two programs compute the same function of their arguments, array entry by array entry:
  * the first dense stage is `x·W + 0`, the reference's `x·W` (adding zero changes nothing);
  * between the stages both programs apply the same gathers, scatter-sums, degree normalisations and neighbour means;
    the kernel gathers through a narrower float format, and a change of float format is the identity here;
  * the second dense stage is `max (((tanh (cls·Wp + bp))·Wa + feat·Wb) + mean·Wl + b, 0)` with `Wa`, `Wb` the first
    768 and the last 12 rows of one 780-row matrix `W`; the reference multiplies the row `[tanh (…) | feat]` of 780
    entries by `W` — one sum of 780 products, split at 768 — and adds `mean·Wl` first rather than last
    (addition of extended reals is commutative and associative; no entry needs to be finite);
  * the third dense stage is `(max ((mean·Wl + p·Wr) + b, 0))·L + lb`, term for term the reference's.
  The returned array of the kernel program is followed back through its eight segments (Proof/KernelValue.lean) and is
  the reference's result stage of the kernel's own arguments; the reference's run returns that stage of ITS arguments,
  which agree. The three frame claims are the generated frames (the reference's is its run with the result dropped),
  and the idealization rewrote no operation.
-/
import proofs.«113858_j52561809768706_2_alg».proof.Defs
import proofs.«113858_j52561809768706_2_alg».proof.Proof.Gen.Kernel
import proofs.«113858_j52561809768706_2_alg».proof.Proof.Gen.Kernel.Skeleton
import proofs.«113858_j52561809768706_2_alg».proof.Proof.Gen.Kernel.Launch
import proofs.«113858_j52561809768706_2_alg».proof.Proof.Gen.Kernel.Points
import proofs.«113858_j52561809768706_2_alg».proof.Proof.Gen.Kernel.Frame
import proofs.«113858_j52561809768706_2_alg».proof.Proof.Gen.KernelIdeal
import proofs.«113858_j52561809768706_2_alg».proof.Proof.Gen.KernelIdeal.Skeleton
import proofs.«113858_j52561809768706_2_alg».proof.Proof.Gen.KernelIdeal.Launch
import proofs.«113858_j52561809768706_2_alg».proof.Proof.Gen.KernelIdeal.Points
import proofs.«113858_j52561809768706_2_alg».proof.Proof.Gen.KernelIdeal.Frame
import proofs.«113858_j52561809768706_2_alg».proof.Proof.Gen.ReferenceIdeal
import proofs.«113858_j52561809768706_2_alg».proof.Proof.Gen.Pre_finite_inputs
import proofs.«113858_j52561809768706_2_alg».proof.Proof.Gen.ReferenceIdeal.Run
import proofs.«113858_j52561809768706_2_alg».proof.Proof.Gen.ReferenceIdeal.Read
import proofs.«113858_j52561809768706_2_alg».proof.Proof.KernelValue
import Idealize.ShloMosaic.Adequacy
import Idealize.ShloMosaic.Init

set_option maxRecDepth 16384

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs return the reference's result stage of the (agreeing) arguments. -/
theorem algebraic : Cert.algebraic_KernelIdeal_ReferenceIdeal := by
  intro m ρ m' ρ' _ hagree
  refine ⟨fun c => Cert.ReferenceIdeal.Read.val_main_v164 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    Cert.Bridge.kernel_value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.ReferenceIdeal.Read.val_main_v164_eq, h0, h1, h2, h3, h4, h5, h6, h7, h8, h9, h10, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
